-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S160x128 : Shape := ⟨2, ![160, 128]⟩
abbrev S128x8 : Shape := ⟨2, ![128, 8]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S160x128 : S_.BroadcastsInDim S160x128 (![] : Fin 0 → Fin S160x128.rank)
  reducesTo_S160x128_S_d0_1 : S160x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg16 : FVec F S128x8 .f32) (main_arg17 : FVec F S8 .f32) (main_v63 : IVec S_ 1) (main_v67 : IVec S_ 1) : IVec S_ 1 :=
  let main_v68 : IVec S_ 1 := andi main_v63 main_v67
  let main_v69 : FVec F S128x8 .f32 := Host.absf main_arg16
  let main_cst_26 : FVec F S_ .f32 := constant S_ .f32 0x7F800000#32
  let main_v70 : FVec F S128x8 .f32 := broadcastInDim S128x8 ![] bcast_S_S128x8 main_cst_26
  let main_v71 : IVec S128x8 1 := cmpf .olt main_v69 main_v70
  let main_c_27 : IVec S_ 1 := constantI S_ 1 1#1
  let main_v72 : IVec S_ 1 := (fun x v => Host.reduce IntOp.andi x v reducesTo_S128x8_S_d0_1 h_S_) main_v71 main_c_27
  let main_v73 : IVec S_ 1 := andi main_v68 main_v72
  let main_v74 : FVec F S8 .f32 := Host.absf main_arg17
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S128x8 .f32) (main_arg17 : FVec F S8 .f32) (main_v48 : IVec S_ 1) (main_v49 : FVec F S160x128 .f32) (main_v50 : FVec F S160x128 .f32) : IVec S_ 1 :=
  let main_v51 : IVec S160x128 1 := cmpf .olt main_v49 main_v50
  let main_c_19 : IVec S_ 1 := constantI S_ 1 1#1
  let main_v52 : IVec S_ 1 := (fun x v => Host.reduce IntOp.andi x v reducesTo_S160x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S160x128 .f32) (main_arg13 : FVec F S128 .f32) (main_arg14 : FVec F S128x128 .f32) (main_arg15 : FVec F S128 .f32) (main_arg16 : FVec F S128x8 .f32) (main_arg17 : FVec F S8 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S160x128 .f32 := Host.absf main_arg12
  let main_cst_18 : FVec F S_ .f32 := constant S_ .f32 0x7F800000#32
  let main_v50 : FVec F S160x128 .f32 := broadcastInDim S160x128 ![] bcast_S_S160x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S160x128 .f32) (main_arg9 : FVec F S128 .f32) (main_arg10 : FVec F S128x128 .f32) (main_arg11 : FVec F S128 .f32) (main_arg12 : FVec F S160x128 .f32) (main_arg13 : FVec F S128 .f32) (main_arg14 : FVec F S128x128 .f32) (main_arg15 : FVec F S128 .f32) (main_arg16 : FVec F S128x8 .f32) (main_arg17 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S160x128 .f32 := Host.absf main_arg8
  let main_cst_10 : FVec F S_ .f32 := constant S_ .f32 0x7F800000#32
  let main_v30 : FVec F S160x128 .f32 := broadcastInDim S160x128 ![] bcast_S_S160x128 main_cst_10
  let main_v31 : IVec S160x128 1 := cmpf .olt main_v29 main_v30
  let main_c_11 : IVec S_ 1 := constantI S_ 1 1#1
  let main_v32 : IVec S_ 1 := (fun x v => Host.reduce IntOp.andi x v reducesTo_S160x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x64 .f32) (main_arg1 : IVec S2x800000 32) (main_arg2 : FVec F S800000x32 .f32) (main_arg3 : IVec S50000 32) (main_arg4 : FVec F S96x128 .f32) (main_arg5 : FVec F S128 .f32) (main_arg6 : FVec F S128x128 .f32) (main_arg7 : FVec F S128 .f32) (main_arg8 : FVec F S160x128 .f32) (main_arg9 : FVec F S128 .f32) (main_arg10 : FVec F S128x128 .f32) (main_arg11 : FVec F S128 .f32) (main_arg12 : FVec F S160x128 .f32) (main_arg13 : FVec F S128 .f32) (main_arg14 : FVec F S128x128 .f32) (main_arg15 : FVec F S128 .f32) (main_arg16 : FVec F S128x8 .f32) (main_arg17 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S96x128 .f32 := Host.absf main_arg4
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S160x128 : Shape := ⟨2, ![160, 128]⟩
abbrev S128x8 : Shape := ⟨2, ![128, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S32x128 : Shape := ⟨2, ![32, 128]⟩
abbrev S1x128 : Shape := ⟨2, ![1, 128]⟩
abbrev S800000x128 : Shape := ⟨2, ![800000, 128]⟩
abbrev S4000x64 : Shape := ⟨2, ![4000, 64]⟩
abbrev S4000x32 : Shape := ⟨2, ![4000, 32]⟩
abbrev S4000x128 : Shape := ⟨2, ![4000, 128]⟩
abbrev S50000x128 : Shape := ⟨2, ![50000, 128]⟩
abbrev S50000x1 : Shape := ⟨2, ![50000, 1]⟩
abbrev S128x1 : Shape := ⟨2, ![128, 1]⟩
abbrev S1x8 : Shape := ⟨2, ![1, 8]⟩

abbrev nBuf : Space → Nat
  | .hbm => 105
  | .vmem => 33
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S50000, .i32⟩
  | .hbm, ⟨4, _⟩ => ⟨S96x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S160x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S160x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x8, .f32⟩
  | .hbm, ⟨17, _⟩ => ⟨S8, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S64x128, .f32⟩
  | .hbm, ⟨32, _⟩ => ⟨S32x128, .f32⟩
  | .hbm, ⟨33, _⟩ => ⟨S1x128, .f32⟩
  | .hbm, ⟨34, _⟩ => ⟨S1x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S128x128, .f32⟩
  | .hbm, ⟨53, _⟩ => ⟨S32x128, .f32⟩
  | .hbm, ⟨54, _⟩ => ⟨S1x128, .f32⟩
  | .hbm, ⟨55, _⟩ => ⟨S1x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S128x128, .f32⟩
  | .hbm, ⟨74, _⟩ => ⟨S32x128, .f32⟩
  | .hbm, ⟨75, _⟩ => ⟨S1x128, .f32⟩
  | .hbm, ⟨76, _⟩ => ⟨S1x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S128x128, .f32⟩
  | .hbm, ⟨87, _⟩ => ⟨S50000x1, .i32⟩
  | .hbm, ⟨88, _⟩ => ⟨S128x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S128, .f32⟩
  | .hbm, ⟨93, _⟩ => ⟨S50000x1, .i32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128x1, .f32⟩
  | .hbm, ⟨99, _⟩ => ⟨S128x128, .f32⟩
  | .hbm, ⟨100, _⟩ => ⟨S128x128, .f32⟩
  | .hbm, ⟨101, _⟩ => ⟨S128x8, .f32⟩
  | .hbm, ⟨102, _⟩ => ⟨S1x8, .f32⟩
  | .hbm, ⟨103, _⟩ => ⟨S128x8, .f32⟩
  | .hbm, ⟨104, _⟩ => ⟨S128x8, .f32⟩
  | .local _ .vmem, ⟨0, _⟩ => ⟨S4000x64, .f32⟩
  | .local _ .vmem, ⟨1, _⟩ => ⟨S4000x64, .f32⟩
  | .local _ .vmem, ⟨2, _⟩ => ⟨S4000x32, .f32⟩
  | .local _ .vmem, ⟨3, _⟩ => ⟨S4000x32, .f32⟩
  | .local _ .vmem, ⟨4, _⟩ => ⟨S64x128, .f32⟩
  | .local _ .vmem, ⟨5, _⟩ => ⟨S32x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x32, .f32⟩
  | .local _ .vmem, ⟨14, _⟩ => ⟨S4000x32, .f32⟩
  | .local _ .vmem, ⟨15, _⟩ => ⟨S128x128, .f32⟩
  | .local _ .vmem, ⟨16, _⟩ => ⟨S32x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x32, .f32⟩
  | .local _ .vmem, ⟨25, _⟩ => ⟨S4000x32, .f32⟩
  | .local _ .vmem, ⟨26, _⟩ => ⟨S128x128, .f32⟩
  | .local _ .vmem, ⟨27, _⟩ => ⟨S32x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S4000x128, .f32⟩
  | .local _ .vmem, ⟨32, _⟩ => ⟨S4000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call0_cst : Ref sig .tc := ⟨.hbm, 40, rfl⟩
abbrev main_call0_v0 : Ref sig .tc := ⟨.hbm, 41, rfl⟩
abbrev main_v19 : Ref sig .tc := ⟨.hbm, 42, rfl⟩
abbrev main_c_1 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call1_cst : Ref sig .tc := ⟨.hbm, 61, rfl⟩
abbrev main_call1_v0 : Ref sig .tc := ⟨.hbm, 62, rfl⟩
abbrev main_v35 : Ref sig .tc := ⟨.hbm, 63, rfl⟩
abbrev main_c_4 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call2_cst : Ref sig .tc := ⟨.hbm, 82, rfl⟩
abbrev main_call2_v0 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_8 : Ref sig .tc := ⟨.hbm, 89, rfl⟩
abbrev main_v55 : Ref sig .tc := ⟨.hbm, 90, rfl⟩
abbrev main_cst_9 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S96x128_S64x128_0_0 : S96x128.Slices ![0, 0] S64x128
  slices_S96x128_S32x128_64_0 : S96x128.Slices ![64, 0] S32x128
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S4000x32_S4000x32_0_0 : ∀ a, (![0, 0] : Fin 2 → Nat) a + S4000x32.size a ≤ S4000x32.size a
  h_S4000x32 : 0 < S4000x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  bcast_S_S50000x128 : S_.BroadcastsInDim S50000x128 (![] : Fin 0 → Fin S50000x128.rank)
  slices_S160x128_S128x128_0_0 : S160x128.Slices ![0, 0] S128x128
  slices_S160x128_S32x128_128_0 : S160x128.Slices ![128, 0] S32x128
  shapeCasts_S4000x128_S4000x128 : S4000x128.ShapeCasts S4000x128
  shapeCasts_S128x128_S128x128 : S128x128.ShapeCasts S128x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  gather_S50000x64_S800000x1_S800000x64_1_0_n_n_0_1_164_wf : GatherDims.WF S50000x64 S800000x1 S800000x64 [1] [0] [] [0] [] 1 ![1, 64]
  dot_S4000x64_S64x128_S4000x128_1_0_0_1_n_n_wf : DotDims.WF S4000x64 S64x128 S4000x128 [1] [0] [0] [1] [] []
  dot_S4000x32_S32x128_S4000x128_1_0_0_1_n_n_wf : DotDims.WF S4000x32 S32x128 S4000x128 [1] [0] [0] [1] [] []
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x8_S128x8_1_0_0_1_n_n_wf : DotDims.WF S128x128 S128x8 S128x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S800000x32.size a
  hwx0_1 : ∀ i : grid0.Coords, EltTy.bits .f32 = 32 ∨ (Rect.block (s := S800000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S800000x128.size a
  hwx0_7 : ∀ i : grid0.Coords, EltTy.bits .f32 = 32 ∨ (Rect.block (s := S800000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S800000x32.size a
  hwx1_1 : ∀ i : grid1.Coords, EltTy.bits .f32 = 32 ∨ (Rect.block (s := S800000x32) S4000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S800000x128.size a
  hwx1_7 : ∀ i : grid1.Coords, EltTy.bits .f32 = 32 ∨ (Rect.block (s := S800000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S800000x32.size a
  hwx2_1 : ∀ i : grid2.Coords, EltTy.bits .f32 = 32 ∨ (Rect.block (s := S800000x32) S4000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x128.size a ≤ S32x128.size a
  hwx2_3 : ∀ i : grid2.Coords, EltTy.bits .f32 = 32 ∨ (Rect.block (s := S32x128) S32x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S800000x128.size a
  hwx2_7 : ∀ i : grid2.Coords, EltTy.bits .f32 = 32 ∨ (Rect.block (s := S800000x128) S4000x128.size (cc2_transform_7 i) (hinb2_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x8_S128x8_1_0_0_1_n_n : DotDims S128x128 S128x8 S128x8 where
  lhsContracting := [1]
  rhsContracting := [0]
  lhsNonContracting := [0]
  rhsNonContracting := [1]
  lhsBatch := []
  rhsBatch := []
  wf := dot_S128x128_S128x8_S128x8_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v42) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S32x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S50000 : Shape := ⟨1, ![50000]⟩
abbrev S96x128 : Shape := ⟨2, ![96, 128]⟩
abbrev S128 : Shape := ⟨1, ![128]⟩
abbrev S128x128 : Shape := ⟨2, ![128, 128]⟩
abbrev S160x128 : Shape := ⟨2, ![160, 128]⟩
abbrev S128x8 : Shape := ⟨2, ![128, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S800000x128 : Shape := ⟨2, ![800000, 128]⟩
abbrev S1x128 : Shape := ⟨2, ![1, 128]⟩
abbrev S50000x128 : Shape := ⟨2, ![50000, 128]⟩
abbrev S800000x160 : Shape := ⟨2, ![800000, 160]⟩
abbrev S50000x1 : Shape := ⟨2, ![50000, 1]⟩
abbrev S128x1 : Shape := ⟨2, ![128, 1]⟩
abbrev S1x8 : Shape := ⟨2, ![1, 8]⟩

abbrev nBuf : Space → Nat
  | .hbm => 126
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S50000, .i32⟩
  | .hbm, ⟨4, _⟩ => ⟨S96x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S160x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S160x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x8, .f32⟩
  | .hbm, ⟨17, _⟩ => ⟨S8, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x96, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S1x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x160, .f32⟩
  | .hbm, ⟨60, _⟩ => ⟨S800000x128, .f32⟩
  | .hbm, ⟨61, _⟩ => ⟨S1x128, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S1x128, .f32⟩
  | .hbm, ⟨69, _⟩ => ⟨S800000x128, .f32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .f32⟩
  | .hbm, ⟨87, _⟩ => ⟨S800000x160, .f32⟩
  | .hbm, ⟨88, _⟩ => ⟨S800000x128, .f32⟩
  | .hbm, ⟨89, _⟩ => ⟨S1x128, .f32⟩
  | .hbm, ⟨90, _⟩ => ⟨S800000x128, .f32⟩
  | .hbm, ⟨91, _⟩ => ⟨S800000x128, .f32⟩
  | .hbm, ⟨92, _⟩ => ⟨S_, .f32⟩
  | .hbm, ⟨93, _⟩ => ⟨S800000x128, .f32⟩
  | .hbm, ⟨94, _⟩ => ⟨S800000x128, .f32⟩
  | .hbm, ⟨95, _⟩ => ⟨S800000x128, .f32⟩
  | .hbm, ⟨96, _⟩ => ⟨S1x128, .f32⟩
  | .hbm, ⟨97, _⟩ => ⟨S800000x128, .f32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S_, .f32⟩
  | .hbm, ⟨107, _⟩ => ⟨S128x128, .f32⟩
  | .hbm, ⟨108, _⟩ => ⟨S50000x1, .i32⟩
  | .hbm, ⟨109, _⟩ => ⟨S128x128, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S128, .f32⟩
  | .hbm, ⟨114, _⟩ => ⟨S50000x1, .i32⟩
  | .hbm, ⟨115, _⟩ => ⟨S128, .f32⟩
  | .hbm, ⟨116, _⟩ => ⟨S_, .f32⟩
  | .hbm, ⟨117, _⟩ => ⟨S128, .f32⟩
  | .hbm, ⟨118, _⟩ => ⟨S128, .f32⟩
  | .hbm, ⟨119, _⟩ => ⟨S128x1, .f32⟩
  | .hbm, ⟨120, _⟩ => ⟨S128x128, .f32⟩
  | .hbm, ⟨121, _⟩ => ⟨S128x128, .f32⟩
  | .hbm, ⟨122, _⟩ => ⟨S128x8, .f32⟩
  | .hbm, ⟨123, _⟩ => ⟨S1x8, .f32⟩
  | .hbm, ⟨124, _⟩ => ⟨S128x8, .f32⟩
  | .hbm, ⟨125, _⟩ => ⟨S128x8, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_cst : Ref sig .tc := ⟨.hbm, 47, rfl⟩
abbrev main_call1_v0 : Ref sig .tc := ⟨.hbm, 48, rfl⟩
abbrev main_v24 : Ref sig .tc := ⟨.hbm, 49, rfl⟩
abbrev main_c_1 : Ref sig .tc := ⟨.hbm, 50, rfl⟩
abbrev main_v25 : Ref sig .tc := ⟨.hbm, 51, rfl⟩
abbrev main_v26 : Ref sig .tc := ⟨.hbm, 52, rfl⟩
abbrev main_c_2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_cst : Ref sig .tc := ⟨.hbm, 64, rfl⟩
abbrev main_call2_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_3 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call3_cst : Ref sig .tc := ⟨.hbm, 75, rfl⟩
abbrev main_call3_v0 : Ref sig .tc := ⟨.hbm, 76, rfl⟩
abbrev main_v45 : Ref sig .tc := ⟨.hbm, 77, rfl⟩
abbrev main_c_4 : Ref sig .tc := ⟨.hbm, 78, rfl⟩
abbrev main_v46 : Ref sig .tc := ⟨.hbm, 79, rfl⟩
abbrev main_v47 : Ref sig .tc := ⟨.hbm, 80, rfl⟩
abbrev main_c_5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call4_cst : Ref sig .tc := ⟨.hbm, 92, rfl⟩
abbrev main_call4_v0 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_6 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call5_cst : Ref sig .tc := ⟨.hbm, 103, rfl⟩
abbrev main_call5_v0 : Ref sig .tc := ⟨.hbm, 104, rfl⟩
abbrev main_v66 : Ref sig .tc := ⟨.hbm, 105, rfl⟩
abbrev main_cst_7 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_8 : Ref sig .tc := ⟨.hbm, 110, rfl⟩
abbrev main_v70 : Ref sig .tc := ⟨.hbm, 111, rfl⟩
abbrev main_cst_9 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_10 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S800000x128_S800000x32_S800000x160_d1 : Shape.Concatenates [S800000x128, S800000x32] S800000x160 1
  bcast_S_S128x128 : S_.BroadcastsInDim S128x128 (![] : Fin 0 → Fin S128x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  gather_S50000x64_S800000x1_S800000x64_1_0_n_n_0_1_164_wf : GatherDims.WF S50000x64 S800000x1 S800000x64 [1] [0] [] [0] [] 1 ![1, 64]
  dot_S800000x96_S96x128_S800000x128_1_0_0_1_n_n_wf : DotDims.WF S800000x96 S96x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S800000x160_S160x128_S800000x128_1_0_0_1_n_n_wf : DotDims.WF S800000x160 S160x128 S800000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x8_S128x8_1_0_0_1_n_n_wf : DotDims.WF S128x128 S128x8 S128x8 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x128_S800000x128_1_0_0_1_n_n : DotDims S800000x96 S96x128 S800000x128 where
  lhsContracting := [1]
  rhsContracting := [0]
  lhsNonContracting := [0]
  rhsNonContracting := [1]
  lhsBatch := []
  rhsBatch := []
  wf := dot_S800000x96_S96x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x8_S128x8_1_0_0_1_n_n : DotDims S128x128 S128x8 S128x8 where
  lhsContracting := [1]
  rhsContracting := [0]
  lhsNonContracting := [0]
  rhsNonContracting := [1]
  lhsBatch := []
  rhsBatch := []
  wf := dot_S128x128_S128x8_S128x8_1_0_0_1_n_n_wf

class Facts : Prop extends Facts₀ where

variable [Facts]
-- ==== Proof.KernelRun.lean ====
/-
  The idealized kernel's run, with every unscoped buffer named at the end.

  The program is thirteen segments: stretches of host operations and three launches of the edge perceptron. Every weakly
  fair execution from a memory with zero counters terminates without a fault, and at the end every unscoped buffer `b`
  of device `c` holds the contents the segments' fold gives it from the launch memory: each stretch of host
  operations applied to what the previous segment left, each launch's arrays at what its write-backs leave. The
  result buffer is one of those buffers, so its final contents can be read through the fold.
-/
import proofs.«155102_j70978629533941_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, without a fault, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.RunAll

end
-- ==== Proof.RefMlp.lean ====
/-
  The reference's three edge perceptrons, each named as one function of its gathered input.

  Every layer of the reference joins the gathered node features with the edge features, applies a dense layer, the
  rectifier and a second dense layer. The first layer's node features have 64 columns (joined width 96), the other
  two 128 (joined width 160). The reference's stages 20, 41 and 62 are these functions of the stages 10, 31 and 52
  (the three gathers) and of the layer's weights, by unfolding the stages between.
-/
import proofs.«155102_j70978629533941_1_alg».proof.Proof.Gen.ReferenceIdeal.Read

noncomputable section

namespace Cert.ReferenceIdeal.Layers

open Cert.ReferenceIdeal Cert.ReferenceIdeal.Gen Idealize.ShloMosaic Idealize.ShloMosaic.TcCoe Idealize.ShloMosaic.StableHlo

/-- The edge perceptron of one layer on the whole edge array: the gathered node features `A` joined with the edge
    features `E` along the columns, times `W₁`, plus `b₁` on every row, rectified, times `W₂`, plus `b₂` on every row. -/
def mlp64 (A : FVec Ideal S800000x64 .f32) (E : FVec Ideal S800000x32 .f32)
    (W₁ : FVec Ideal S96x128 .f32) (b₁ : FVec Ideal S128 .f32)
    (W₂ : FVec Ideal S128x128 .f32) (b₂ : FVec Ideal S128 .f32) :
    FVec Ideal S800000x128 .f32 :=
  addf (F := Ideal)
    (Host.dotGeneral dot_S800000x128_S128x128_S800000x128_1_0_0_1_n_n none
      (maximumf (F := Ideal)
        (addf (F := Ideal)
          (Host.dotGeneral dot_S800000x96_S96x128_S800000x128_1_0_0_1_n_n none
            (concatenate S800000x96 1 [⟨S800000x64, A⟩, ⟨S800000x32, E⟩] concatenates_S800000x64_S800000x32_S800000x96_d1) W₁)
          (broadcastInDim S800000x128 ![0, 1] bcast_S1x128_S800000x128_0_1 (broadcastInDim S1x128 ![1] bcast_S128_S1x128_1 b₁)))
        (broadcastInDim S800000x128 ![] bcast_S_S800000x128 (constant (F := Ideal) S_ .f32 0x00000000#32)))
      W₂)
    (broadcastInDim S800000x128 ![0, 1] bcast_S1x128_S800000x128_0_1 (broadcastInDim S1x128 ![1] bcast_S128_S1x128_1 b₂))

/-- The edge perceptron of one layer on the whole edge array: the gathered node features `A` joined with the edge
    features `E` along the columns, times `W₁`, plus `b₁` on every row, rectified, times `W₂`, plus `b₂` on every row. -/
def mlp128 (A : FVec Ideal S800000x128 .f32) (E : FVec Ideal S800000x32 .f32)
    (W₁ : FVec Ideal S160x128 .f32) (b₁ : FVec Ideal S128 .f32)
    (W₂ : FVec Ideal S128x128 .f32) (b₂ : FVec Ideal S128 .f32) :
    FVec Ideal S800000x128 .f32 :=
  addf (F := Ideal)
    (Host.dotGeneral dot_S800000x128_S128x128_S800000x128_1_0_0_1_n_n none
      (maximumf (F := Ideal)
        (addf (F := Ideal)
          (Host.dotGeneral dot_S800000x160_S160x128_S800000x128_1_0_0_1_n_n none
            (concatenate S800000x160 1 [⟨S800000x128, A⟩, ⟨S800000x32, E⟩] concatenates_S800000x128_S800000x32_S800000x160_d1) W₁)
          (broadcastInDim S800000x128 ![0, 1] bcast_S1x128_S800000x128_0_1 (broadcastInDim S1x128 ![1] bcast_S128_S1x128_1 b₁)))
        (broadcastInDim S800000x128 ![] bcast_S_S800000x128 (constant (F := Ideal) S_ .f32 0x00000000#32)))
      W₂)
    (broadcastInDim S800000x128 ![0, 1] bcast_S1x128_S800000x128_0_1 (broadcastInDim S1x128 ![1] bcast_S128_S1x128_1 b₂))

/-- The first layer's perceptron output is `mlp64` of the first gather. -/
theorem stage20 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x4 : (⟨S96x128, .f32⟩ : BufTy).Contents (Elt Ideal))
    (x5 : (⟨S128, .f32⟩ : BufTy).Contents (Elt Ideal)) (x6 : (⟨S128x128, .f32⟩ : BufTy).Contents (Elt Ideal)) (x7 : (⟨S128, .f32⟩ : BufTy).Contents (Elt Ideal)) :
    Read.val_main_v20 (F := Ideal) x0 x1 x2 x4 x5 x6 x7 = mlp64 (Read.val_main_v10 (F := Ideal) x0 x1) x2 x4 x5 x6 x7 := rfl

/-- The second layer's perceptron output is `mlp128` of the second gather. -/
theorem stage41 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x4 : (⟨S96x128, .f32⟩ : BufTy).Contents (Elt Ideal))
    (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S160x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    Read.val_main_v41 (F := Ideal) x0 x1 x2 x4 x5 x6 x7 x8 x9 x10 x11
      = mlp128 (Read.val_main_v31 (F := Ideal) x0 x1 x2 x4 x5 x6 x7) x2 x8 x9 x10 x11 := rfl

/-- The third layer's perceptron output is `mlp128` of the third gather. -/
theorem stage62 (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x4 : (⟨S96x128, .f32⟩ : BufTy).Contents (Elt Ideal))
    (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S160x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) (x12 : (⟨S160x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal)) :
    Read.val_main_v62 (F := Ideal) x0 x1 x2 x4 x5 x6 x7 x8 x9 x10 x11 x12 x13 x14 x15
      = mlp128 (Read.val_main_v52 (F := Ideal) x0 x1 x2 x4 x5 x6 x7 x8 x9 x10 x11) x2 x12 x13 x14 x15 := rfl

end Cert.ReferenceIdeal.Layers

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«155102_j70978629533941_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«155102_j70978629533941_1_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.LibMlpRows.lean ====
/-
  A two-layer perceptron on the rows of an edge array, a block of rows at a time, against the same perceptron on the
  whole array, on the extended reals.

  The whole-array form joins the gathered node features `A` (`M×d`) and the edge features `E` (`M×e`) along the
  columns, multiplies by a `(d+e)×H` weight `W₁`, adds a bias, rectifies, multiplies by an `H×N` weight `W₂` and adds
  a second bias. The block form never joins anything: on a `B`-row block it multiplies the node part by the first `d`
  rows of `W₁` and the edge part by the last `e` rows and adds the two products. Entry for entry they agree, because a
  sum over the `d+e` joined columns is the sum over the first `d` plus the sum over the last `e`
  (`sum_split`) — a regrouping of one finite sum, which holds on the extended reals with no finiteness asked of any
  entry. The second layer is the same dense layer on both sides, row for row.
-/
import proofs.«155102_j70978629533941_1_alg».proof.Proof.LibAffineRows
import Idealize.ShloMosaic.Lib.ValueLayout
import Idealize.ShloMosaic.Lib.Pipeline.Value

noncomputable section

open scoped BigOperators

namespace Cert.MlpRows

open Idealize.ShloMosaic Idealize.ShloMosaic.ValueIdx

/-- A sum over `d + e` consecutive indices is the sum over the first `d` plus the sum over the last `e`. -/
theorem sum_split {D d e : ℕ} (hD : D = d + e) (f : Fin D → EReal) :
    ∑ k : Fin D, f k = ∑ k : Fin d, f ⟨k.val, by omega⟩ + ∑ k : Fin e, f ⟨d + k.val, by omega⟩ := by
  subst hD
  rw [Fin.sum_univ_add]
  rfl

variable {M B d e D H : ℕ} {φ₁ φ₂ φ₃ ψ₁ ψ₂ ψ₃ ψ₄ : FTy}

/-- The joined array at a column of the node part is the node part. -/
theorem joined_left (A : FVec Ideal ⟨2, ![M, d]⟩ φ₁) (E : FVec Ideal ⟨2, ![M, e]⟩ φ₁)
    (hcat : Shape.Concatenates [(⟨2, ![M, d]⟩ : Shape), ⟨2, ![M, e]⟩] ⟨2, ![M, D]⟩ 1) (P : Fin M) (k : Fin d) (k' : Fin D)
    (hk : k'.val = k.val) :
    concatenate ⟨2, ![M, D]⟩ 1 [⟨⟨2, ![M, d]⟩, A⟩, ⟨⟨2, ![M, e]⟩, E⟩] hcat (ix2 P k') = A (ix2 P k) :=
  concatenate_pair_apply_left 1 A E hcat (ix2 P k') rfl (ix2 P k) fun b => by
    match b with
    | ⟨0, _⟩ => rfl
    | ⟨1, _⟩ => exact hk.symm

/-- The joined array at a column of the edge part is the edge part, the node part's width less. -/
theorem joined_right (A : FVec Ideal ⟨2, ![M, d]⟩ φ₁) (E : FVec Ideal ⟨2, ![M, e]⟩ φ₁)
    (hcat : Shape.Concatenates [(⟨2, ![M, d]⟩ : Shape), ⟨2, ![M, e]⟩] ⟨2, ![M, D]⟩ 1) (P : Fin M) (k : Fin e) (k' : Fin D)
    (hk : k'.val = d + k.val) :
    concatenate ⟨2, ![M, D]⟩ 1 [⟨⟨2, ![M, d]⟩, A⟩, ⟨⟨2, ![M, e]⟩, E⟩] hcat (ix2 P k') = E (ix2 P k) :=
  concatenate_pair_apply_right 1 A E hcat (ix2 P k') rfl rfl (ix2 P k) (fun b hb => by
    match b with
    | ⟨0, _⟩ => rfl
    | ⟨1, _⟩ => exact absurd rfl hb) (by
    show k.val + d = k'.val
    omega)

/-- The first layer before its bias: the block's two products added are the one product with the joined array. -/
theorem first_products (prec₁ prec₂ prec' : Option ContractPrecision) (hD : D = d + e)
    (A : FVec Ideal ⟨2, ![M, d]⟩ φ₁) (E : FVec Ideal ⟨2, ![M, e]⟩ φ₁) (W : FVec Ideal ⟨2, ![D, H]⟩ φ₂)
    (hcat : Shape.Concatenates [(⟨2, ![M, d]⟩ : Shape), ⟨2, ![M, e]⟩] ⟨2, ![M, D]⟩ 1)
    (x : FVec Ideal ⟨2, ![B, d]⟩ ψ₁) (y : FVec Ideal ⟨2, ![B, e]⟩ ψ₂) (wx : FVec Ideal ⟨2, ![d, H]⟩ ψ₃) (wy : FVec Ideal ⟨2, ![e, H]⟩ ψ₄)
    (P : Fin M) (p : Fin B) (j : Fin H)
    (hx : ∀ k : Fin d, (x (ix2 p k) : EReal) = A (ix2 P k)) (hy : ∀ k : Fin e, (y (ix2 p k) : EReal) = E (ix2 P k))
    (hwx : ∀ k : Fin d, (wx (ix2 k j) : EReal) = W (ix2 (⟨k.val, by omega⟩ : Fin D) j))
    (hwy : ∀ k : Fin e, (wy (ix2 k j) : EReal) = W (ix2 (⟨d + k.val, by omega⟩ : Fin D) j)) :
    addf (matmul (DotDims.plain B d H) prec₁ x wx (constant ⟨2, ![B, H]⟩ .f32 0x00000000#32))
        (matmul (DotDims.plain B e H) prec₂ y wy (constant ⟨2, ![B, H]⟩ .f32 0x00000000#32)) (ix2 p j)
      = Host.dotGeneral (DotDims.plain M D H) prec'
          (concatenate ⟨2, ![M, D]⟩ 1 [⟨⟨2, ![M, d]⟩, A⟩, ⟨⟨2, ![M, e]⟩, E⟩] hcat) W (ix2 P j) := by
  show FloatOps.matmul _ _ _ _ _ (ix2 p j) + FloatOps.matmul _ _ _ _ _ (ix2 p j) = FloatOps.dotGeneral _ _ _ _ _ (ix2 P j)
  rw [Cert.Lib.PlainDot.matmul_zero_apply, Cert.Lib.PlainDot.matmul_zero_apply, Cert.Lib.PlainDot.dotGeneral_apply,
    sum_split hD]
  congr 1
  · exact Finset.sum_congr rfl fun k _ => by rw [hx k, hwx k, joined_left A E hcat P k _ rfl]
  · exact Finset.sum_congr rfl fun k _ => by rw [hy k, hwy k, joined_right A E hcat P k _ rfl]

/-- The whole perceptron, row for row: entry `(p, q)` of the block form on a `B`-row block whose rows are rows of the
    whole arrays is entry `(P, q)` of the whole-array form. The biases enter as the arrays that are added (`bk₁`, `bk₂`
    on the block; `bR₁`, `bR₂` on the whole array), equal at the entries read; the rectified first layer passes
    through a change of float format, which on the extended reals is the identity. -/
theorem mlp_row {N : ℕ} {ψ₅ : FTy} (prec₁ prec₂ prec₃ prec' prec'' : Option ContractPrecision) (hD : D = d + e)
    (A : FVec Ideal ⟨2, ![M, d]⟩ φ₁) (E : FVec Ideal ⟨2, ![M, e]⟩ φ₁) (W₁ : FVec Ideal ⟨2, ![D, H]⟩ φ₂)
    (hcat : Shape.Concatenates [(⟨2, ![M, d]⟩ : Shape), ⟨2, ![M, e]⟩] ⟨2, ![M, D]⟩ 1)
    (bR₁ : FVec Ideal ⟨2, ![M, H]⟩ .f32) (hz : (⟨0, ![]⟩ : Shape).BroadcastsInDim ⟨2, ![M, H]⟩ ![])
    (W₂ : FVec Ideal ⟨2, ![H, N]⟩ φ₃) (bR₂ : FVec Ideal ⟨2, ![M, N]⟩ .f32)
    (x : FVec Ideal ⟨2, ![B, d]⟩ ψ₁) (y : FVec Ideal ⟨2, ![B, e]⟩ ψ₂) (wx : FVec Ideal ⟨2, ![d, H]⟩ ψ₃) (wy : FVec Ideal ⟨2, ![e, H]⟩ ψ₄)
    (bk₁ : FVec Ideal ⟨2, ![B, H]⟩ .f32) (w₂ : FVec Ideal ⟨2, ![H, N]⟩ ψ₅) (bk₂ : FVec Ideal ⟨2, ![B, N]⟩ .f32)
    (hlt : FTy.bf16.bits < FTy.f32.bits) (P : Fin M) (p : Fin B) (q : Fin N)
    (hx : ∀ k : Fin d, (x (ix2 p k) : EReal) = A (ix2 P k)) (hy : ∀ k : Fin e, (y (ix2 p k) : EReal) = E (ix2 P k))
    (hwx : ∀ (j : Fin H) (k : Fin d), (wx (ix2 k j) : EReal) = W₁ (ix2 (⟨k.val, by omega⟩ : Fin D) j))
    (hwy : ∀ (j : Fin H) (k : Fin e), (wy (ix2 k j) : EReal) = W₁ (ix2 (⟨d + k.val, by omega⟩ : Fin D) j))
    (hb₁ : ∀ j : Fin H, (bk₁ (ix2 p j) : EReal) = bR₁ (ix2 P j))
    (hw₂ : ∀ k : Fin H, (w₂ (ix2 k q) : EReal) = W₂ (ix2 k q)) (hb₂ : (bk₂ (ix2 p q) : EReal) = bR₂ (ix2 P q)) :
    addf (matmul (DotDims.plain B H N) prec₃
        (truncf .bf16
          (maximumf
            (addf
              (addf (matmul (DotDims.plain B d H) prec₁ x wx (constant ⟨2, ![B, H]⟩ .f32 0x00000000#32))
                (matmul (DotDims.plain B e H) prec₂ y wy (constant ⟨2, ![B, H]⟩ .f32 0x00000000#32)))
              bk₁)
            (broadcast ⟨2, ![B, H]⟩ (Scalar.ofBits .f32 0x00000000#32)))
          hlt)
        w₂ (constant ⟨2, ![B, N]⟩ .f32 0x00000000#32)) bk₂ (ix2 p q)
      = addf (Host.dotGeneral (DotDims.plain M H N) prec''
          (maximumf
            (addf (Host.dotGeneral (DotDims.plain M D H) prec'
                (concatenate ⟨2, ![M, D]⟩ 1 [⟨⟨2, ![M, d]⟩, A⟩, ⟨⟨2, ![M, e]⟩, E⟩] hcat) W₁) bR₁)
            (broadcastInDim ⟨2, ![M, H]⟩ ![] hz (constant ⟨0, ![]⟩ .f32 0x00000000#32)))
          W₂) bR₂ (ix2 P q) := by
  refine Cert.Lib.AffineRows.layer_row prec₃ prec'' _ W₂ _ w₂ bk₂ bR₂ P p q (fun k => ?_) hw₂ hb₂
  refine (Cert.Lib.AffineRows.relu_row _ _ (ix2 p k) (ix2 P k) hz ?_)
  show FloatOps.addf _ _ = FloatOps.addf _ _
  rw [hb₁ k]
  exact congrArg (FloatOps.addf · _)
    (first_products prec₁ prec₂ prec' hD A E W₁ hcat x y wx wy P p k hx hy (hwx k) (hwy k))

end Cert.MlpRows

end
-- ==== Proof.Region0.lean ====
/-
  Launch 0 of the edge perceptron: what its output array holds when the launch ends.

  The grid has 200 points; point `t` is given rows `4000 t … 4000 t + 3999` of the gathered node features and of the
  edge features, the whole of the two weight pieces, the two bias rows and the second weight, and writes back rows
  `4000 t … 4000 t + 3999` of the output. If the weight pieces are the first 64 and the last 32 rows of one
  96-row weight `W₁` and the bias rows are the vectors `b₁`, `b₂` laid as one row, then what point `t` writes back is
  those rows of the whole-array perceptron of the reference (row for row: `Cert.MlpRows.mlp_row`), and the 200 blocks
  tile the output, so the output array ends as the whole-array perceptron.
-/
import proofs.«155102_j70978629533941_1_alg».proof.Proof.Gen.KernelIdeal.Frame
import proofs.«155102_j70978629533941_1_alg».proof.Proof.RefMlp
import proofs.«155102_j70978629533941_1_alg».proof.Proof.LibMlpRows
import Idealize.ShloMosaic.Lib.Pipeline.Value
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: the two edge-parallel inputs and the output move with the point along the
    rows, every other window stays on its one block. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0's block at point `t` is rows `4000 t … 4000 t + 3999` of its array. -/
theorem blk_0 (t : Fin cfg0.N) (p : Fin 4000) (k : Fin 64) (P : Fin 800000) (hP : P.val = t.val * 4000 + p.val) :
    (iblk0 V c 0 t : Vec Ideal S4000x64 .f32) (ix2 p k) = (V c main_v10 : S800000x64.Idx → EReal) (ix2 P k) := by
  obtain ⟨h0, h1, -, -, -, -, -, -, -, -, -, -, -, -, -, -⟩ := idx t
  unfold iblk0
  rw [View.read_apply]
  show V c main_v10 _ = V c main_v10 _
  congr 1
  funext a
  apply Fin.ext
  match a with
  | ⟨0, _⟩ => show win0_0.index t (0 : Fin 2) * 4000 + 1 * p.val = P.val; rw [h0, hP]; omega
  | ⟨1, _⟩ => show win0_0.index t (1 : Fin 2) * 64 + 1 * k.val = k.val; rw [h1]; omega

/-- Window 1's block at point `t` is rows `4000 t … 4000 t + 3999` of its array. -/
theorem blk_1 (t : Fin cfg0.N) (p : Fin 4000) (k : Fin 32) (P : Fin 800000) (hP : P.val = t.val * 4000 + p.val) :
    (iblk0 V c 1 t : Vec Ideal S4000x32 .f32) (ix2 p k) = (V c main_arg2 : S800000x32.Idx → EReal) (ix2 P k) := by
  obtain ⟨-, -, h0, h1, -, -, -, -, -, -, -, -, -, -, -, -⟩ := idx t
  unfold iblk0
  rw [View.read_apply]
  show V c main_arg2 _ = V c main_arg2 _
  congr 1
  funext a
  apply Fin.ext
  match a with
  | ⟨0, _⟩ => show win0_1.index t (0 : Fin 2) * 4000 + 1 * p.val = P.val; rw [h0, hP]; omega
  | ⟨1, _⟩ => show win0_1.index t (1 : Fin 2) * 32 + 1 * k.val = k.val; rw [h1]; omega

/-- Window 2's block at every point is its whole array. -/
theorem blk_2 (t : Fin cfg0.N) (p : Fin 64) (k : Fin 128) :
    (iblk0 V c 2 t : Vec Ideal S64x128 .f32) (ix2 p k) = (V c main_v11 : S64x128.Idx → EReal) (ix2 p k) := by
  obtain ⟨-, -, -, -, h0, h1, -, -, -, -, -, -, -, -, -, -⟩ := idx t
  unfold iblk0
  rw [View.read_apply]
  show V c main_v11 _ = V c main_v11 _
  congr 1
  funext a
  apply Fin.ext
  match a with
  | ⟨0, _⟩ => show win0_2.index t (0 : Fin 2) * 64 + 1 * p.val = p.val; rw [h0]; omega
  | ⟨1, _⟩ => show win0_2.index t (1 : Fin 2) * 128 + 1 * k.val = k.val; rw [h1]; omega

/-- Window 3's block at every point is its whole array. -/
theorem blk_3 (t : Fin cfg0.N) (p : Fin 32) (k : Fin 128) :
    (iblk0 V c 3 t : Vec Ideal S32x128 .f32) (ix2 p k) = (V c main_v12 : S32x128.Idx → EReal) (ix2 p k) := by
  obtain ⟨-, -, -, -, -, -, h0, h1, -, -, -, -, -, -, -, -⟩ := idx t
  unfold iblk0
  rw [View.read_apply]
  show V c main_v12 _ = V c main_v12 _
  congr 1
  funext a
  apply Fin.ext
  match a with
  | ⟨0, _⟩ => show win0_3.index t (0 : Fin 2) * 32 + 1 * p.val = p.val; rw [h0]; omega
  | ⟨1, _⟩ => show win0_3.index t (1 : Fin 2) * 128 + 1 * k.val = k.val; rw [h1]; omega

/-- Window 4's block at every point is its whole array. -/
theorem blk_4 (t : Fin cfg0.N) (p : Fin 1) (k : Fin 128) :
    (iblk0 V c 4 t : Vec Ideal S1x128 .f32) (ix2 p k) = (V c main_v13 : S1x128.Idx → EReal) (ix2 p k) := by
  obtain ⟨-, -, -, -, -, -, -, -, h0, h1, -, -, -, -, -, -⟩ := idx t
  unfold iblk0
  rw [View.read_apply]
  show V c main_v13 _ = V c main_v13 _
  congr 1
  funext a
  apply Fin.ext
  match a with
  | ⟨0, _⟩ => show win0_4.index t (0 : Fin 2) * 1 + 1 * p.val = p.val; rw [h0]; omega
  | ⟨1, _⟩ => show win0_4.index t (1 : Fin 2) * 128 + 1 * k.val = k.val; rw [h1]; omega

/-- Window 5's block at every point is its whole array. -/
theorem blk_5 (t : Fin cfg0.N) (p : Fin 128) (k : Fin 128) :
    (iblk0 V c 5 t : Vec Ideal S128x128 .f32) (ix2 p k) = (V c main_arg6 : S128x128.Idx → EReal) (ix2 p k) := by
  obtain ⟨-, -, -, -, -, -, -, -, -, -, h0, h1, -, -, -, -⟩ := idx t
  unfold iblk0
  rw [View.read_apply]
  show V c main_arg6 _ = V c main_arg6 _
  congr 1
  funext a
  apply Fin.ext
  match a with
  | ⟨0, _⟩ => show win0_5.index t (0 : Fin 2) * 128 + 1 * p.val = p.val; rw [h0]; omega
  | ⟨1, _⟩ => show win0_5.index t (1 : Fin 2) * 128 + 1 * k.val = k.val; rw [h1]; omega

/-- Window 6's block at every point is its whole array. -/
theorem blk_6 (t : Fin cfg0.N) (p : Fin 1) (k : Fin 128) :
    (iblk0 V c 6 t : Vec Ideal S1x128 .f32) (ix2 p k) = (V c main_v14 : S1x128.Idx → EReal) (ix2 p k) := by
  obtain ⟨-, -, -, -, -, -, -, -, -, -, -, -, h0, h1, -, -⟩ := idx t
  unfold iblk0
  rw [View.read_apply]
  show V c main_v14 _ = V c main_v14 _
  congr 1
  funext a
  apply Fin.ext
  match a with
  | ⟨0, _⟩ => show win0_6.index t (0 : Fin 2) * 1 + 1 * p.val = p.val; rw [h0]; omega
  | ⟨1, _⟩ => show win0_6.index t (1 : Fin 2) * 128 + 1 * k.val = k.val; rw [h1]; omega

/-- What point `t` writes back is block `t` of the whole-array perceptron. -/
theorem flushed_eq (A : S800000x64.Idx → EReal) (E : S800000x32.Idx → EReal) (W₁ : S96x128.Idx → EReal) (b₁ : S128.Idx → EReal)
    (W₂ : S128x128.Idx → EReal) (b₂ : S128.Idx → EReal)
    (hA : (V c main_v10 : S800000x64.Idx → EReal) = A) (hE : (V c main_arg2 : S800000x32.Idx → EReal) = E)
    (hwx : ∀ (k : Fin 64) (j : Fin 128), (V c main_v11 : S64x128.Idx → EReal) (ix2 k j) = W₁ (ix2 (⟨k.val, by omega⟩ : Fin 96) j))
    (hwy : ∀ (k : Fin 32) (j : Fin 128), (V c main_v12 : S32x128.Idx → EReal) (ix2 k j) = W₁ (ix2 (⟨64 + k.val, by omega⟩ : Fin 96) j))
    (hb₁ : ∀ j : Fin 128, (V c main_v13 : S1x128.Idx → EReal) (ix2 (0 : Fin 1) j) = b₁ (ix1 j))
    (hW₂ : (V c main_arg6 : S128x128.Idx → EReal) = W₂)
    (hb₂ : ∀ q : Fin 128, (V c main_v14 : S1x128.Idx → EReal) (ix2 (0 : Fin 1) q) = b₂ (ix1 q))
    (t : Fin cfg0.N) :
    (dat0 V c).flushed 7 t = ((cfg0.win 7).blk t).view.read (Elt Ideal) (Cert.ReferenceIdeal.Layers.mlp64 A E W₁ b₁ W₂ b₂) := by
  show (cfg0.win 7).cut (grid0.coords t) ((dat0 V c).after 7 t) = _
  rw [after0_7]
  unfold out0_7
  rw [View.canon_unit_zero hz]
  simp only [View.ld_unit_zero (S := S4000x64) hz, View.ld_unit_zero (S := S4000x32) hz, View.ld_unit_zero (S := S64x128) hz,
    View.ld_unit_zero (S := S32x128) hz, View.ld_unit_zero (S := S1x128) hz, View.ld_unit_zero (S := S128x128) hz]
  funext y
  obtain ⟨p, q, rfl⟩ : ∃ (p : Fin 4000) (q : Fin 128), y = ix2 p q := ⟨y 0, y 1, eq_ix2 y⟩
  have ht : t.val < 200 := by have := t.isLt; have hN : cfg0.N = 200 := N_0; omega
  have hPlt : t.val * 4000 + p.val < 800000 := by have := p.isLt; omega
  have hemb : ((cfg0.win 7).blk t).view.emb (ix2 p q) = ix2 (⟨t.val * 4000 + p.val, hPlt⟩ : Fin 800000) q := by
    obtain ⟨-, -, -, -, -, -, -, -, -, -, -, -, -, -, h0, h1⟩ := idx t
    funext a
    apply Fin.ext
    match a with
    | ⟨0, _⟩ => show win0_7.index t (0 : Fin 2) * 4000 + 1 * p.val = t.val * 4000 + p.val; rw [h0]; omega
    | ⟨1, _⟩ => show win0_7.index t (1 : Fin 2) * 128 + 1 * q.val = q.val; rw [h1]; omega
  show k0_pay1 (iblk0 V c 0 t) (iblk0 V c 1 t) (iblk0 V c 2 t) (iblk0 V c 3 t) (iblk0 V c 4 t) (iblk0 V c 5 t) (iblk0 V c 6 t) (ix2 p q)
    = Cert.ReferenceIdeal.Layers.mlp64 A E W₁ b₁ W₂ b₂ (((cfg0.win 7).blk t).view.emb (ix2 p q))
  rw [hemb]
  unfold k0_pay1 Cert.ReferenceIdeal.Layers.mlp64
  refine Cert.MlpRows.mlp_row none none none none none rfl A E W₁ _ _ _ W₂ _ _ _ _ _ _ _ _ _ _ p q
    (fun k => ?_) (fun k => ?_) (fun j k => ?_) (fun j k => ?_) (fun j => ?_) (fun k => ?_) ?_
  · refine (congrFun (shapeCast_self (s := S4000x64) (iblk0 V c 0 t) _) (ix2 p k)).trans ?_
    rw [blk_0 V c t p k ⟨t.val * 4000 + p.val, hPlt⟩ rfl, hA]
  · show (iblk0 V c 1 t : Vec Ideal S4000x32 .f32) (ix2 p k) = _
    rw [blk_1 V c t p k ⟨t.val * 4000 + p.val, hPlt⟩ rfl, hE]
  · refine (congrFun (shapeCast_self (s := S64x128) (iblk0 V c 2 t) _) (ix2 k j)).trans ?_
    rw [blk_2 V c t k j, hwx k j]
  · refine (congrFun (shapeCast_self (s := S32x128) (iblk0 V c 3 t) _) (ix2 k j)).trans ?_
    rw [blk_3 V c t k j, hwy k j]
  · rw [broadcastTo_1b_ab_apply, shapeCast_self, blk_4 V c t 0 j, hb₁ j]
    exact (Cert.Lib.AffineRows.inDimRow_apply b₁ _ _ _ j).symm
  · show (iblk0 V c 5 t : Vec Ideal S128x128 .f32) (ix2 k q) = _
    rw [blk_5 V c t k q, hW₂]
  · rw [broadcastTo_1b_ab_apply, shapeCast_self, blk_6 V c t 0 q, hb₂ q]
    exact (Cert.Lib.AffineRows.inDimRow_apply b₂ _ _ _ q).symm

/-- An index of the output array is in point `t`'s block iff each coordinate is in the block's range on its axis. -/
theorem mem_blk (t : Fin cfg0.N) (i : S800000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v15).slice (win0_7.rect t)).set ↔ _
  rw [View.set_slice_whole, Rect.mem_set_unit]
  exact Iff.rfl

/-- Row `r` of the output is in the block of point `r / 4000`: the 200 blocks tile the 800000 rows. -/
theorem cover (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  have hN : cfg0.N = 200 := N_0
  have hlt : (i 0).val / 4000 < cfg0.N := by rw [hN]; omega
  refine ⟨⟨(i 0).val / 4000, hlt⟩, flush0_7 _, ?_⟩
  obtain ⟨-, -, -, -, -, -, -, -, -, -, -, -, -, -, h0, h1⟩ := idx (⟨(i 0).val / 4000, hlt⟩ : Fin cfg0.N)
  rw [mem_blk]
  intro a
  match a with
  | ⟨0, _⟩ =>
    show win0_7.index ⟨(i 0).val / 4000, hlt⟩ (0 : Fin 2) * 4000 ≤ (i 0).val ∧ (i 0).val < win0_7.index ⟨(i 0).val / 4000, hlt⟩ (0 : Fin 2) * 4000 + 4000
    rw [h0]
    show (i 0).val / 4000 * 4000 ≤ (i 0).val ∧ (i 0).val < (i 0).val / 4000 * 4000 + 4000
    omega
  | ⟨1, _⟩ =>
    show win0_7.index ⟨(i 0).val / 4000, hlt⟩ (1 : Fin 2) * 128 ≤ (i 1).val ∧ (i 1).val < win0_7.index ⟨(i 0).val / 4000, hlt⟩ (1 : Fin 2) * 128 + 128
    rw [h1]
    omega

/-- The output array after the launch is the whole-array perceptron: the 200 blocks tile its 800000 rows. -/
theorem final (A : S800000x64.Idx → EReal) (E : S800000x32.Idx → EReal) (W₁ : S96x128.Idx → EReal) (b₁ : S128.Idx → EReal)
    (W₂ : S128x128.Idx → EReal) (b₂ : S128.Idx → EReal)
    (hA : (V c main_v10 : S800000x64.Idx → EReal) = A) (hE : (V c main_arg2 : S800000x32.Idx → EReal) = E)
    (hwx : ∀ (k : Fin 64) (j : Fin 128), (V c main_v11 : S64x128.Idx → EReal) (ix2 k j) = W₁ (ix2 (⟨k.val, by omega⟩ : Fin 96) j))
    (hwy : ∀ (k : Fin 32) (j : Fin 128), (V c main_v12 : S32x128.Idx → EReal) (ix2 k j) = W₁ (ix2 (⟨64 + k.val, by omega⟩ : Fin 96) j))
    (hb₁ : ∀ j : Fin 128, (V c main_v13 : S1x128.Idx → EReal) (ix2 (0 : Fin 1) j) = b₁ (ix1 j))
    (hW₂ : (V c main_arg6 : S128x128.Idx → EReal) = W₂)
    (hb₂ : ∀ q : Fin 128, (V c main_v14 : S1x128.Idx → EReal) (ix2 (0 : Fin 1) q) = b₂ (ix1 q)) :
    (dat0 V c).arrAt 7 cfg0.N = Cert.ReferenceIdeal.Layers.mlp64 A E W₁ b₁ W₂ b₂ :=
  (dat0 V c).arrAt_eq_of_cover 7 _ (fun t _ => flushed_eq V c A E W₁ b₁ W₂ b₂ hA hE hwx hwy hb₁ hW₂ hb₂ t) cover

end Cert.KernelIdeal.Region0

end
-- ==== Proof.Region1.lean ====
/-
  Launch 1 of the edge perceptron: what its output array holds when the launch ends.

  The grid has 200 points; point `t` is given rows `4000 t … 4000 t + 3999` of the gathered node features and of the
  edge features, the whole of the two weight pieces, the two bias rows and the second weight, and writes back rows
  `4000 t … 4000 t + 3999` of the output. If the weight pieces are the first 128 and the last 32 rows of one
  160-row weight `W₁` and the bias rows are the vectors `b₁`, `b₂` laid as one row, then what point `t` writes back is
  those rows of the whole-array perceptron of the reference (row for row: `Cert.MlpRows.mlp_row`), and the 200 blocks
  tile the output, so the output array ends as the whole-array perceptron.
-/
import proofs.«155102_j70978629533941_1_alg».proof.Proof.Gen.KernelIdeal.Frame
import proofs.«155102_j70978629533941_1_alg».proof.Proof.RefMlp
import proofs.«155102_j70978629533941_1_alg».proof.Proof.LibMlpRows
import Idealize.ShloMosaic.Lib.Pipeline.Value
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: the two edge-parallel inputs and the output move with the point along the
    rows, every other window stays on its one block. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Window 0's block at point `t` is rows `4000 t … 4000 t + 3999` of its array. -/
theorem blk_0 (t : Fin cfg1.N) (p : Fin 4000) (k : Fin 128) (P : Fin 800000) (hP : P.val = t.val * 4000 + p.val) :
    (iblk1 V c 0 t : Vec Ideal S4000x128 .f32) (ix2 p k) = (V c main_v26 : S800000x128.Idx → EReal) (ix2 P k) := by
  obtain ⟨h0, h1, -, -, -, -, -, -, -, -, -, -, -, -, -, -⟩ := idx t
  unfold iblk1
  rw [View.read_apply]
  show V c main_v26 _ = V c main_v26 _
  congr 1
  funext a
  apply Fin.ext
  match a with
  | ⟨0, _⟩ => show win1_0.index t (0 : Fin 2) * 4000 + 1 * p.val = P.val; rw [h0, hP]; omega
  | ⟨1, _⟩ => show win1_0.index t (1 : Fin 2) * 128 + 1 * k.val = k.val; rw [h1]; omega

/-- Window 1's block at point `t` is rows `4000 t … 4000 t + 3999` of its array. -/
theorem blk_1 (t : Fin cfg1.N) (p : Fin 4000) (k : Fin 32) (P : Fin 800000) (hP : P.val = t.val * 4000 + p.val) :
    (iblk1 V c 1 t : Vec Ideal S4000x32 .f32) (ix2 p k) = (V c main_arg2 : S800000x32.Idx → EReal) (ix2 P k) := by
  obtain ⟨-, -, h0, h1, -, -, -, -, -, -, -, -, -, -, -, -⟩ := idx t
  unfold iblk1
  rw [View.read_apply]
  show V c main_arg2 _ = V c main_arg2 _
  congr 1
  funext a
  apply Fin.ext
  match a with
  | ⟨0, _⟩ => show win1_1.index t (0 : Fin 2) * 4000 + 1 * p.val = P.val; rw [h0, hP]; omega
  | ⟨1, _⟩ => show win1_1.index t (1 : Fin 2) * 32 + 1 * k.val = k.val; rw [h1]; omega

/-- Window 2's block at every point is its whole array. -/
theorem blk_2 (t : Fin cfg1.N) (p : Fin 128) (k : Fin 128) :
    (iblk1 V c 2 t : Vec Ideal S128x128 .f32) (ix2 p k) = (V c main_v27 : S128x128.Idx → EReal) (ix2 p k) := by
  obtain ⟨-, -, -, -, h0, h1, -, -, -, -, -, -, -, -, -, -⟩ := idx t
  unfold iblk1
  rw [View.read_apply]
  show V c main_v27 _ = V c main_v27 _
  congr 1
  funext a
  apply Fin.ext
  match a with
  | ⟨0, _⟩ => show win1_2.index t (0 : Fin 2) * 128 + 1 * p.val = p.val; rw [h0]; omega
  | ⟨1, _⟩ => show win1_2.index t (1 : Fin 2) * 128 + 1 * k.val = k.val; rw [h1]; omega

/-- Window 3's block at every point is its whole array. -/
theorem blk_3 (t : Fin cfg1.N) (p : Fin 32) (k : Fin 128) :
    (iblk1 V c 3 t : Vec Ideal S32x128 .f32) (ix2 p k) = (V c main_v28 : S32x128.Idx → EReal) (ix2 p k) := by
  obtain ⟨-, -, -, -, -, -, h0, h1, -, -, -, -, -, -, -, -⟩ := idx t
  unfold iblk1
  rw [View.read_apply]
  show V c main_v28 _ = V c main_v28 _
  congr 1
  funext a
  apply Fin.ext
  match a with
  | ⟨0, _⟩ => show win1_3.index t (0 : Fin 2) * 32 + 1 * p.val = p.val; rw [h0]; omega
  | ⟨1, _⟩ => show win1_3.index t (1 : Fin 2) * 128 + 1 * k.val = k.val; rw [h1]; omega

/-- Window 4's block at every point is its whole array. -/
theorem blk_4 (t : Fin cfg1.N) (p : Fin 1) (k : Fin 128) :
    (iblk1 V c 4 t : Vec Ideal S1x128 .f32) (ix2 p k) = (V c main_v29 : S1x128.Idx → EReal) (ix2 p k) := by
  obtain ⟨-, -, -, -, -, -, -, -, h0, h1, -, -, -, -, -, -⟩ := idx t
  unfold iblk1
  rw [View.read_apply]
  show V c main_v29 _ = V c main_v29 _
  congr 1
  funext a
  apply Fin.ext
  match a with
  | ⟨0, _⟩ => show win1_4.index t (0 : Fin 2) * 1 + 1 * p.val = p.val; rw [h0]; omega
  | ⟨1, _⟩ => show win1_4.index t (1 : Fin 2) * 128 + 1 * k.val = k.val; rw [h1]; omega

/-- Window 5's block at every point is its whole array. -/
theorem blk_5 (t : Fin cfg1.N) (p : Fin 128) (k : Fin 128) :
    (iblk1 V c 5 t : Vec Ideal S128x128 .f32) (ix2 p k) = (V c main_arg10 : S128x128.Idx → EReal) (ix2 p k) := by
  obtain ⟨-, -, -, -, -, -, -, -, -, -, h0, h1, -, -, -, -⟩ := idx t
  unfold iblk1
  rw [View.read_apply]
  show V c main_arg10 _ = V c main_arg10 _
  congr 1
  funext a
  apply Fin.ext
  match a with
  | ⟨0, _⟩ => show win1_5.index t (0 : Fin 2) * 128 + 1 * p.val = p.val; rw [h0]; omega
  | ⟨1, _⟩ => show win1_5.index t (1 : Fin 2) * 128 + 1 * k.val = k.val; rw [h1]; omega

/-- Window 6's block at every point is its whole array. -/
theorem blk_6 (t : Fin cfg1.N) (p : Fin 1) (k : Fin 128) :
    (iblk1 V c 6 t : Vec Ideal S1x128 .f32) (ix2 p k) = (V c main_v30 : S1x128.Idx → EReal) (ix2 p k) := by
  obtain ⟨-, -, -, -, -, -, -, -, -, -, -, -, h0, h1, -, -⟩ := idx t
  unfold iblk1
  rw [View.read_apply]
  show V c main_v30 _ = V c main_v30 _
  congr 1
  funext a
  apply Fin.ext
  match a with
  | ⟨0, _⟩ => show win1_6.index t (0 : Fin 2) * 1 + 1 * p.val = p.val; rw [h0]; omega
  | ⟨1, _⟩ => show win1_6.index t (1 : Fin 2) * 128 + 1 * k.val = k.val; rw [h1]; omega

/-- What point `t` writes back is block `t` of the whole-array perceptron. -/
theorem flushed_eq (A : S800000x128.Idx → EReal) (E : S800000x32.Idx → EReal) (W₁ : S160x128.Idx → EReal) (b₁ : S128.Idx → EReal)
    (W₂ : S128x128.Idx → EReal) (b₂ : S128.Idx → EReal)
    (hA : (V c main_v26 : S800000x128.Idx → EReal) = A) (hE : (V c main_arg2 : S800000x32.Idx → EReal) = E)
    (hwx : ∀ (k : Fin 128) (j : Fin 128), (V c main_v27 : S128x128.Idx → EReal) (ix2 k j) = W₁ (ix2 (⟨k.val, by omega⟩ : Fin 160) j))
    (hwy : ∀ (k : Fin 32) (j : Fin 128), (V c main_v28 : S32x128.Idx → EReal) (ix2 k j) = W₁ (ix2 (⟨128 + k.val, by omega⟩ : Fin 160) j))
    (hb₁ : ∀ j : Fin 128, (V c main_v29 : S1x128.Idx → EReal) (ix2 (0 : Fin 1) j) = b₁ (ix1 j))
    (hW₂ : (V c main_arg10 : S128x128.Idx → EReal) = W₂)
    (hb₂ : ∀ q : Fin 128, (V c main_v30 : S1x128.Idx → EReal) (ix2 (0 : Fin 1) q) = b₂ (ix1 q))
    (t : Fin cfg1.N) :
    (dat1 V c).flushed 7 t = ((cfg1.win 7).blk t).view.read (Elt Ideal) (Cert.ReferenceIdeal.Layers.mlp128 A E W₁ b₁ W₂ b₂) := by
  show (cfg1.win 7).cut (grid1.coords t) ((dat1 V c).after 7 t) = _
  rw [after1_7]
  unfold out1_7
  rw [View.canon_unit_zero hz]
  simp only [View.ld_unit_zero (S := S4000x128) hz, View.ld_unit_zero (S := S4000x32) hz, View.ld_unit_zero (S := S128x128) hz,
    View.ld_unit_zero (S := S32x128) hz, View.ld_unit_zero (S := S1x128) hz, View.ld_unit_zero (S := S128x128) hz]
  funext y
  obtain ⟨p, q, rfl⟩ : ∃ (p : Fin 4000) (q : Fin 128), y = ix2 p q := ⟨y 0, y 1, eq_ix2 y⟩
  have ht : t.val < 200 := by have := t.isLt; have hN : cfg1.N = 200 := N_1; omega
  have hPlt : t.val * 4000 + p.val < 800000 := by have := p.isLt; omega
  have hemb : ((cfg1.win 7).blk t).view.emb (ix2 p q) = ix2 (⟨t.val * 4000 + p.val, hPlt⟩ : Fin 800000) q := by
    obtain ⟨-, -, -, -, -, -, -, -, -, -, -, -, -, -, h0, h1⟩ := idx t
    funext a
    apply Fin.ext
    match a with
    | ⟨0, _⟩ => show win1_7.index t (0 : Fin 2) * 4000 + 1 * p.val = t.val * 4000 + p.val; rw [h0]; omega
    | ⟨1, _⟩ => show win1_7.index t (1 : Fin 2) * 128 + 1 * q.val = q.val; rw [h1]; omega
  show k1_pay1 (iblk1 V c 0 t) (iblk1 V c 1 t) (iblk1 V c 2 t) (iblk1 V c 3 t) (iblk1 V c 4 t) (iblk1 V c 5 t) (iblk1 V c 6 t) (ix2 p q)
    = Cert.ReferenceIdeal.Layers.mlp128 A E W₁ b₁ W₂ b₂ (((cfg1.win 7).blk t).view.emb (ix2 p q))
  rw [hemb]
  unfold k1_pay1 Cert.ReferenceIdeal.Layers.mlp128
  refine Cert.MlpRows.mlp_row none none none none none rfl A E W₁ _ _ _ W₂ _ _ _ _ _ _ _ _ _ _ p q
    (fun k => ?_) (fun k => ?_) (fun j k => ?_) (fun j k => ?_) (fun j => ?_) (fun k => ?_) ?_
  · refine (congrFun (shapeCast_self (s := S4000x128) (iblk1 V c 0 t) _) (ix2 p k)).trans ?_
    rw [blk_0 V c t p k ⟨t.val * 4000 + p.val, hPlt⟩ rfl, hA]
  · show (iblk1 V c 1 t : Vec Ideal S4000x32 .f32) (ix2 p k) = _
    rw [blk_1 V c t p k ⟨t.val * 4000 + p.val, hPlt⟩ rfl, hE]
  · refine (congrFun (shapeCast_self (s := S128x128) (iblk1 V c 2 t) _) (ix2 k j)).trans ?_
    rw [blk_2 V c t k j, hwx k j]
  · refine (congrFun (shapeCast_self (s := S32x128) (iblk1 V c 3 t) _) (ix2 k j)).trans ?_
    rw [blk_3 V c t k j, hwy k j]
  · rw [broadcastTo_1b_ab_apply, shapeCast_self, blk_4 V c t 0 j, hb₁ j]
    exact (Cert.Lib.AffineRows.inDimRow_apply b₁ _ _ _ j).symm
  · show (iblk1 V c 5 t : Vec Ideal S128x128 .f32) (ix2 k q) = _
    rw [blk_5 V c t k q, hW₂]
  · rw [broadcastTo_1b_ab_apply, shapeCast_self, blk_6 V c t 0 q, hb₂ q]
    exact (Cert.Lib.AffineRows.inDimRow_apply b₂ _ _ _ q).symm

/-- An index of the output array is in point `t`'s block iff each coordinate is in the block's range on its axis. -/
theorem mem_blk (t : Fin cfg1.N) (i : S800000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v31).slice (win1_7.rect t)).set ↔ _
  rw [View.set_slice_whole, Rect.mem_set_unit]
  exact Iff.rfl

/-- Row `r` of the output is in the block of point `r / 4000`: the 200 blocks tile the 800000 rows. -/
theorem cover (i : S800000x128.Idx) : ∃ t : Fin cfg1.N, (cfg1.win 7).flush t = true ∧ i ∈ ((cfg1.win 7).blk t).view.set := by
  have hi0 : (i 0).val < 800000 := (i 0).isLt
  have hi1 : (i 1).val < 128 := (i 1).isLt
  have hN : cfg1.N = 200 := N_1
  have hlt : (i 0).val / 4000 < cfg1.N := by rw [hN]; omega
  refine ⟨⟨(i 0).val / 4000, hlt⟩, flush1_7 _, ?_⟩
  obtain ⟨-, -, -, -, -, -, -, -, -, -, -, -, -, -, h0, h1⟩ := idx (⟨(i 0).val / 4000, hlt⟩ : Fin cfg1.N)
  rw [mem_blk]
  intro a
  match a with
  | ⟨0, _⟩ =>
    show win1_7.index ⟨(i 0).val / 4000, hlt⟩ (0 : Fin 2) * 4000 ≤ (i 0).val ∧ (i 0).val < win1_7.index ⟨(i 0).val / 4000, hlt⟩ (0 : Fin 2) * 4000 + 4000
    rw [h0]
    show (i 0).val / 4000 * 4000 ≤ (i 0).val ∧ (i 0).val < (i 0).val / 4000 * 4000 + 4000
    omega
  | ⟨1, _⟩ =>
    show win1_7.index ⟨(i 0).val / 4000, hlt⟩ (1 : Fin 2) * 128 ≤ (i 1).val ∧ (i 1).val < win1_7.index ⟨(i 0).val / 4000, hlt⟩ (1 : Fin 2) * 128 + 128
    rw [h1]
    omega

/-- The output array after the launch is the whole-array perceptron: the 200 blocks tile its 800000 rows. -/
theorem final (A : S800000x128.Idx → EReal) (E : S800000x32.Idx → EReal) (W₁ : S160x128.Idx → EReal) (b₁ : S128.Idx → EReal)
    (W₂ : S128x128.Idx → EReal) (b₂ : S128.Idx → EReal)
    (hA : (V c main_v26 : S800000x128.Idx → EReal) = A) (hE : (V c main_arg2 : S800000x32.Idx → EReal) = E)
    (hwx : ∀ (k : Fin 128) (j : Fin 128), (V c main_v27 : S128x128.Idx → EReal) (ix2 k j) = W₁ (ix2 (⟨k.val, by omega⟩ : Fin 160) j))
    (hwy : ∀ (k : Fin 32) (j : Fin 128), (V c main_v28 : S32x128.Idx → EReal) (ix2 k j) = W₁ (ix2 (⟨128 + k.val, by omega⟩ : Fin 160) j))
    (hb₁ : ∀ j : Fin 128, (V c main_v29 : S1x128.Idx → EReal) (ix2 (0 : Fin 1) j) = b₁ (ix1 j))
    (hW₂ : (V c main_arg10 : S128x128.Idx → EReal) = W₂)
    (hb₂ : ∀ q : Fin 128, (V c main_v30 : S1x128.Idx → EReal) (ix2 (0 : Fin 1) q) = b₂ (ix1 q)) :
    (dat1 V c).arrAt 7 cfg1.N = Cert.ReferenceIdeal.Layers.mlp128 A E W₁ b₁ W₂ b₂ :=
  (dat1 V c).arrAt_eq_of_cover 7 _ (fun t _ => flushed_eq V c A E W₁ b₁ W₂ b₂ hA hE hwx hwy hb₁ hW₂ hb₂ t) cover

end Cert.KernelIdeal.Region1

end
-- ==== Proof.Region2.lean ====
/-
  Launch 2 of the edge perceptron: what its output array holds when the launch ends.

  The grid has 200 points; point `t` is given rows `4000 t … 4000 t + 3999` of the gathered node features and of the
  edge features, the whole of the two weight pieces, the two bias rows and the second weight, and writes back rows
  `4000 t … 4000 t + 3999` of the output. If the weight pieces are the first 128 and the last 32 rows of one
  160-row weight `W₁` and the bias rows are the vectors `b₁`, `b₂` laid as one row, then what point `t` writes back is
  those rows of the whole-array perceptron of the reference (row for row: `Cert.MlpRows.mlp_row`), and the 200 blocks
  tile the output, so the output array ends as the whole-array perceptron.
-/
import proofs.«155102_j70978629533941_1_alg».proof.Proof.Gen.KernelIdeal.Frame
import proofs.«155102_j70978629533941_1_alg».proof.Proof.RefMlp
import proofs.«155102_j70978629533941_1_alg».proof.Proof.LibMlpRows
import Idealize.ShloMosaic.Lib.Pipeline.Value
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: the two edge-parallel inputs and the output move with the point along the
    rows, every other window stays on its one block. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Window 0's block at point `t` is rows `4000 t … 4000 t + 3999` of its array. -/
theorem blk_0 (t : Fin cfg2.N) (p : Fin 4000) (k : Fin 128) (P : Fin 800000) (hP : P.val = t.val * 4000 + p.val) :
    (iblk2 V c 0 t : Vec Ideal S4000x128 .f32) (ix2 p k) = (V c main_v42 : S800000x128.Idx → EReal) (ix2 P k) := by
  obtain ⟨h0, h1, -, -, -, -, -, -, -, -, -, -, -, -, -, -⟩ := idx t
  unfold iblk2
  rw [View.read_apply]
  show V c main_v42 _ = V c main_v42 _
  congr 1
  funext a
  apply Fin.ext
  match a with
  | ⟨0, _⟩ => show win2_0.index t (0 : Fin 2) * 4000 + 1 * p.val = P.val; rw [h0, hP]; omega
  | ⟨1, _⟩ => show win2_0.index t (1 : Fin 2) * 128 + 1 * k.val = k.val; rw [h1]; omega

/-- Window 1's block at point `t` is rows `4000 t … 4000 t + 3999` of its array. -/
theorem blk_1 (t : Fin cfg2.N) (p : Fin 4000) (k : Fin 32) (P : Fin 800000) (hP : P.val = t.val * 4000 + p.val) :
    (iblk2 V c 1 t : Vec Ideal S4000x32 .f32) (ix2 p k) = (V c main_arg2 : S800000x32.Idx → EReal) (ix2 P k) := by
  obtain ⟨-, -, h0, h1, -, -, -, -, -, -, -, -, -, -, -, -⟩ := idx t
  unfold iblk2
  rw [View.read_apply]
  show V c main_arg2 _ = V c main_arg2 _
  congr 1
  funext a
  apply Fin.ext
  match a with
  | ⟨0, _⟩ => show win2_1.index t (0 : Fin 2) * 4000 + 1 * p.val = P.val; rw [h0, hP]; omega
  | ⟨1, _⟩ => show win2_1.index t (1 : Fin 2) * 32 + 1 * k.val = k.val; rw [h1]; omega

/-- Window 2's block at every point is its whole array. -/
theorem blk_2 (t : Fin cfg2.N) (p : Fin 128) (k : Fin 128) :
    (iblk2 V c 2 t : Vec Ideal S128x128 .f32) (ix2 p k) = (V c main_v43 : S128x128.Idx → EReal) (ix2 p k) := by
  obtain ⟨-, -, -, -, h0, h1, -, -, -, -, -, -, -, -, -, -⟩ := idx t
  unfold iblk2
  rw [View.read_apply]
  show V c main_v43 _ = V c main_v43 _
  congr 1
  funext a
  apply Fin.ext
  match a with
  | ⟨0, _⟩ => show win2_2.index t (0 : Fin 2) * 128 + 1 * p.val = p.val; rw [h0]; omega
  | ⟨1, _⟩ => show win2_2.index t (1 : Fin 2) * 128 + 1 * k.val = k.val; rw [h1]; omega

/-- Window 3's block at every point is its whole array. -/
theorem blk_3 (t : Fin cfg2.N) (p : Fin 32) (k : Fin 128) :
    (iblk2 V c 3 t : Vec Ideal S32x128 .f32) (ix2 p k) = (V c main_v44 : S32x128.Idx → EReal) (ix2 p k) := by
  obtain ⟨-, -, -, -, -, -, h0, h1, -, -, -, -, -, -, -, -⟩ := idx t
  unfold iblk2
  rw [View.read_apply]
  show V c main_v44 _ = V c main_v44 _
  congr 1
  funext a
  apply Fin.ext
  match a with
  | ⟨0, _⟩ => show win2_3.index t (0 : Fin 2) * 32 + 1 * p.val = p.val; rw [h0]; omega
  | ⟨1, _⟩ => show win2_3.index t (1 : Fin 2) * 128 + 1 * k.val = k.val; rw [h1]; omega

/-- Window 4's block at every point is its whole array. -/
theorem blk_4 (t : Fin cfg2.N) (p : Fin 1) (k : Fin 128) :
    (iblk2 V c 4 t : Vec Ideal S1x128 .f32) (ix2 p k) = (V c main_v45 : S1x128.Idx → EReal) (ix2 p k) := by
  obtain ⟨-, -, -, -, -, -, -, -, h0, h1, -, -, -, -, -, -⟩ := idx t
  unfold iblk2
  rw [View.read_apply]
  show V c main_v45 _ = V c main_v45 _
  congr 1
  funext a
  apply Fin.ext
  match a with
  | ⟨0, _⟩ => show win2_4.index t (0 : Fin 2) * 1 + 1 * p.val = p.val; rw [h0]; omega
  | ⟨1, _⟩ => show win2_4.index t (1 : Fin 2) * 128 + 1 * k.val = k.val; rw [h1]; omega

/-- Window 5's block at every point is its whole array. -/
theorem blk_5 (t : Fin cfg2.N) (p : Fin 128) (k : Fin 128) :
    (iblk2 V c 5 t : Vec Ideal S128x128 .f32) (ix2 p k) = (V c main_arg14 : S128x128.Idx → EReal) (ix2 p k) := by
  obtain ⟨-, -, -, -, -, -, -, -, -, -, h0, h1, -, -, -, -⟩ := idx t
  unfold iblk2
  rw [View.read_apply]
  show V c main_arg14 _ = V c main_arg14 _
  congr 1
  funext a
  apply Fin.ext
  match a with
  | ⟨0, _⟩ => show win2_5.index t (0 : Fin 2) * 128 + 1 * p.val = p.val; rw [h0]; omega
  | ⟨1, _⟩ => show win2_5.index t (1 : Fin 2) * 128 + 1 * k.val = k.val; rw [h1]; omega

/-- Window 6's block at every point is its whole array. -/
theorem blk_6 (t : Fin cfg2.N) (p : Fin 1) (k : Fin 128) :
    (iblk2 V c 6 t : Vec Ideal S1x128 .f32) (ix2 p k) = (V c main_v46 : S1x128.Idx → EReal) (ix2 p k) := by
  obtain ⟨-, -, -, -, -, -, -, -, -, -, -, -, h0, h1, -, -⟩ := idx t
  unfold iblk2
  rw [View.read_apply]
  show V c main_v46 _ = V c main_v46 _
  congr 1
  funext a
  apply Fin.ext
  match a with
  | ⟨0, _⟩ => show win2_6.index t (0 : Fin 2) * 1 + 1 * p.val = p.val; rw [h0]; omega
  | ⟨1, _⟩ => show win2_6.index t (1 : Fin 2) * 128 + 1 * k.val = k.val; rw [h1]; omega

/-- What point `t` writes back is block `t` of the whole-array perceptron. -/
theorem flushed_eq (A : S800000x128.Idx → EReal) (E : S800000x32.Idx → EReal) (W₁ : S160x128.Idx → EReal) (b₁ : S128.Idx → EReal)
    (W₂ : S128x128.Idx → EReal) (b₂ : S128.Idx → EReal)
    (hA : (V c main_v42 : S800000x128.Idx → EReal) = A) (hE : (V c main_arg2 : S800000x32.Idx → EReal) = E)
    (hwx : ∀ (k : Fin 128) (j : Fin 128), (V c main_v43 : S128x128.Idx → EReal) (ix2 k j) = W₁ (ix2 (⟨k.val, by omega⟩ : Fin 160) j))
    (hwy : ∀ (k : Fin 32) (j : Fin 128), (V c main_v44 : S32x128.Idx → EReal) (ix2 k j) = W₁ (ix2 (⟨128 + k.val, by omega⟩ : Fin 160) j))
    (hb₁ : ∀ j : Fin 128, (V c main_v45 : S1x128.Idx → EReal) (ix2 (0 : Fin 1) j) = b₁ (ix1 j))
    (hW₂ : (V c main_arg14 : S128x128.Idx → EReal) = W₂)
    (hb₂ : ∀ q : Fin 128, (V c main_v46 : S1x128.Idx → EReal) (ix2 (0 : Fin 1) q) = b₂ (ix1 q))
    (t : Fin cfg2.N) :
    (dat2 V c).flushed 7 t = ((cfg2.win 7).blk t).view.read (Elt Ideal) (Cert.ReferenceIdeal.Layers.mlp128 A E W₁ b₁ W₂ b₂) := by
  show (cfg2.win 7).cut (grid2.coords t) ((dat2 V c).after 7 t) = _
  rw [after2_7]
  unfold out2_7
  rw [View.canon_unit_zero hz]
  simp only [View.ld_unit_zero (S := S4000x128) hz, View.ld_unit_zero (S := S4000x32) hz, View.ld_unit_zero (S := S128x128) hz,
    View.ld_unit_zero (S := S32x128) hz, View.ld_unit_zero (S := S1x128) hz, View.ld_unit_zero (S := S128x128) hz]
  funext y
  obtain ⟨p, q, rfl⟩ : ∃ (p : Fin 4000) (q : Fin 128), y = ix2 p q := ⟨y 0, y 1, eq_ix2 y⟩
  have ht : t.val < 200 := by have := t.isLt; have hN : cfg2.N = 200 := N_2; omega
  have hPlt : t.val * 4000 + p.val < 800000 := by have := p.isLt; omega
  have hemb : ((cfg2.win 7).blk t).view.emb (ix2 p q) = ix2 (⟨t.val * 4000 + p.val, hPlt⟩ : Fin 800000) q := by
    obtain ⟨-, -, -, -, -, -, -, -, -, -, -, -, -, -, h0, h1⟩ := idx t
    funext a
    apply Fin.ext
    match a with
    | ⟨0, _⟩ => show win2_7.index t (0 : Fin 2) * 4000 + 1 * p.val = t.val * 4000 + p.val; rw [h0]; omega
    | ⟨1, _⟩ => show win2_7.index t (1 : Fin 2) * 128 + 1 * q.val = q.val; rw [h1]; omega
  show k2_pay1 (iblk2 V c 0 t) (iblk2 V c 1 t) (iblk2 V c 2 t) (iblk2 V c 3 t) (iblk2 V c 4 t) (iblk2 V c 5 t) (iblk2 V c 6 t) (ix2 p q)
    = Cert.ReferenceIdeal.Layers.mlp128 A E W₁ b₁ W₂ b₂ (((cfg2.win 7).blk t).view.emb (ix2 p q))
  rw [hemb]
  unfold k2_pay1 Cert.ReferenceIdeal.Layers.mlp128
  refine Cert.MlpRows.mlp_row none none none none none rfl A E W₁ _ _ _ W₂ _ _ _ _ _ _ _ _ _ _ p q
    (fun k => ?_) (fun k => ?_) (fun j k => ?_) (fun j k => ?_) (fun j => ?_) (fun k => ?_) ?_
  · refine (congrFun (shapeCast_self (s := S4000x128) (iblk2 V c 0 t) _) (ix2 p k)).trans ?_
    rw [blk_0 V c t p k ⟨t.val * 4000 + p.val, hPlt⟩ rfl, hA]
  · show (iblk2 V c 1 t : Vec Ideal S4000x32 .f32) (ix2 p k) = _
    rw [blk_1 V c t p k ⟨t.val * 4000 + p.val, hPlt⟩ rfl, hE]
  · refine (congrFun (shapeCast_self (s := S128x128) (iblk2 V c 2 t) _) (ix2 k j)).trans ?_
    rw [blk_2 V c t k j, hwx k j]
  · refine (congrFun (shapeCast_self (s := S32x128) (iblk2 V c 3 t) _) (ix2 k j)).trans ?_
    rw [blk_3 V c t k j, hwy k j]
  · rw [broadcastTo_1b_ab_apply, shapeCast_self, blk_4 V c t 0 j, hb₁ j]
    exact (Cert.Lib.AffineRows.inDimRow_apply b₁ _ _ _ j).symm
  · show (iblk2 V c 5 t : Vec Ideal S128x128 .f32) (ix2 k q) = _
    rw [blk_5 V c t k q, hW₂]
  · rw [broadcastTo_1b_ab_apply, shapeCast_self, blk_6 V c t 0 q, hb₂ q]
    exact (Cert.Lib.AffineRows.inDimRow_apply b₂ _ _ _ q).symm

/-- An index of the output array is in point `t`'s block iff each coordinate is in the block's range on its axis. -/
theorem mem_blk (t : Fin cfg2.N) (i : S800000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v47).slice (win2_7.rect t)).set ↔ _
  rw [View.set_slice_whole, Rect.mem_set_unit]
  exact Iff.rfl

/-- Row `r` of the output is in the block of point `r / 4000`: the 200 blocks tile the 800000 rows. -/
theorem cover (i : S800000x128.Idx) : ∃ t : Fin cfg2.N, (cfg2.win 7).flush t = true ∧ i ∈ ((cfg2.win 7).blk t).view.set := by
  have hi0 : (i 0).val < 800000 := (i 0).isLt
  have hi1 : (i 1).val < 128 := (i 1).isLt
  have hN : cfg2.N = 200 := N_2
  have hlt : (i 0).val / 4000 < cfg2.N := by rw [hN]; omega
  refine ⟨⟨(i 0).val / 4000, hlt⟩, flush2_7 _, ?_⟩
  obtain ⟨-, -, -, -, -, -, -, -, -, -, -, -, -, -, h0, h1⟩ := idx (⟨(i 0).val / 4000, hlt⟩ : Fin cfg2.N)
  rw [mem_blk]
  intro a
  match a with
  | ⟨0, _⟩ =>
    show win2_7.index ⟨(i 0).val / 4000, hlt⟩ (0 : Fin 2) * 4000 ≤ (i 0).val ∧ (i 0).val < win2_7.index ⟨(i 0).val / 4000, hlt⟩ (0 : Fin 2) * 4000 + 4000
    rw [h0]
    show (i 0).val / 4000 * 4000 ≤ (i 0).val ∧ (i 0).val < (i 0).val / 4000 * 4000 + 4000
    omega
  | ⟨1, _⟩ =>
    show win2_7.index ⟨(i 0).val / 4000, hlt⟩ (1 : Fin 2) * 128 ≤ (i 1).val ∧ (i 1).val < win2_7.index ⟨(i 0).val / 4000, hlt⟩ (1 : Fin 2) * 128 + 128
    rw [h1]
    omega

/-- The output array after the launch is the whole-array perceptron: the 200 blocks tile its 800000 rows. -/
theorem final (A : S800000x128.Idx → EReal) (E : S800000x32.Idx → EReal) (W₁ : S160x128.Idx → EReal) (b₁ : S128.Idx → EReal)
    (W₂ : S128x128.Idx → EReal) (b₂ : S128.Idx → EReal)
    (hA : (V c main_v42 : S800000x128.Idx → EReal) = A) (hE : (V c main_arg2 : S800000x32.Idx → EReal) = E)
    (hwx : ∀ (k : Fin 128) (j : Fin 128), (V c main_v43 : S128x128.Idx → EReal) (ix2 k j) = W₁ (ix2 (⟨k.val, by omega⟩ : Fin 160) j))
    (hwy : ∀ (k : Fin 32) (j : Fin 128), (V c main_v44 : S32x128.Idx → EReal) (ix2 k j) = W₁ (ix2 (⟨128 + k.val, by omega⟩ : Fin 160) j))
    (hb₁ : ∀ j : Fin 128, (V c main_v45 : S1x128.Idx → EReal) (ix2 (0 : Fin 1) j) = b₁ (ix1 j))
    (hW₂ : (V c main_arg14 : S128x128.Idx → EReal) = W₂)
    (hb₂ : ∀ q : Fin 128, (V c main_v46 : S1x128.Idx → EReal) (ix2 (0 : Fin 1) q) = b₂ (ix1 q)) :
    (dat2 V c).arrAt 7 cfg2.N = Cert.ReferenceIdeal.Layers.mlp128 A E W₁ b₁ W₂ b₂ :=
  (dat2 V c).arrAt_eq_of_cover 7 _ (fun t _ => flushed_eq V c A E W₁ b₁ W₂ b₂ hA hE hwx hwy hb₁ hW₂ hb₂ t) cover

end Cert.KernelIdeal.Region2

end
-- ==== Proof.Stages.lean ====
/-
  The idealized kernel's buffers, boundary by boundary, in the reference's own words.

  The kernel's @main and the reference's @main run the same host operations around the edge perceptron: the source
  and destination indices cut out of the edge list, the gather of the source rows, the scatter-add onto the
  destination rows, the rectifier, and at the end the two segment sums, the mean and the last dense layer. Only the
  perceptron differs: three launches here, six host operations there. So every buffer of the kernel that matters
  holds, at each segment boundary, a STAGE of the reference (the value one of its operations writes, as a function
  of the arguments): after the first stretch the first gather; after launch 0 the first perceptron's output (the
  launch's output array is the whole-array perceptron, and that is the reference's stage); after the next stretches
  the second gather; and so on to the result. A host stretch carries a stage to the next by the same operations on
  both sides; a launch keeps every buffer but its output.
-/
import proofs.«155102_j70978629533941_1_alg».proof.Proof.Gen.KernelIdeal.Frame
import proofs.«155102_j70978629533941_1_alg».proof.Proof.Gen.ReferenceIdeal.Read
import proofs.«155102_j70978629533941_1_alg».proof.Proof.RefMlp
import proofs.«155102_j70978629533941_1_alg».proof.Proof.Region0
import proofs.«155102_j70978629533941_1_alg».proof.Proof.Region1
import proofs.«155102_j70978629533941_1_alg».proof.Proof.Region2
import Idealize.ShloMosaic.Lib.StableHlo.Run
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read Cert.ReferenceIdeal.Layers

variable (m : (ℓ : Loc nD τ sig) → Buf (Elt Ideal) ℓ) (ρ : Dev nD → PrngReg) (c : Dev nD)

/-- Argument `b` of @main as launched, on device `c`. -/
abbrev arg (b : Ref sig .tc) : Buf (Elt Ideal) ((c : Thread nD τ).loc b) := m ((c : Thread nD τ).loc b)

/-! ## After the first stretch of host operations -/

theorem w1_v1 : W1 m ρ c (Proc.devRef .tc main_v1) = val_main_v1 (F := Ideal) (arg m c main_arg1) := by
  show StableHlo.after hostOps0 (W0 m ρ c) _ = _
  dsimp only [hostOps0]
  after_results
  rfl
theorem w1_v3 : W1 m ρ c (Proc.devRef .tc main_v3) = val_main_v3 (F := Ideal) (arg m c main_arg1) := by
  show StableHlo.after hostOps0 (W0 m ρ c) _ = _
  dsimp only [hostOps0]
  after_results
  rfl
theorem w1_v10 : W1 m ρ c (Proc.devRef .tc main_v10) = val_main_v10 (F := Ideal) (arg m c main_arg0) (arg m c main_arg1) := by
  show StableHlo.after hostOps0 (W0 m ρ c) _ = _
  dsimp only [hostOps0]
  after_results
  rfl
theorem w1_v11 : (W1 m ρ c (Proc.devRef .tc main_v11) : S64x128.Idx → EReal) = extractStridedSlice S64x128 ![0, 0] ((arg m c main_arg4) : S96x128.Idx → EReal) slices_S96x128_S64x128_0_0 := by
  show StableHlo.after hostOps0 (W0 m ρ c) _ = _
  dsimp only [hostOps0]
  after_results
theorem w1_v12 : (W1 m ρ c (Proc.devRef .tc main_v12) : S32x128.Idx → EReal) = extractStridedSlice S32x128 ![64, 0] ((arg m c main_arg4) : S96x128.Idx → EReal) slices_S96x128_S32x128_64_0 := by
  show StableHlo.after hostOps0 (W0 m ρ c) _ = _
  dsimp only [hostOps0]
  after_results
theorem w1_v13 : (W1 m ρ c (Proc.devRef .tc main_v13) : S1x128.Idx → EReal) = shapeCast S1x128 ((arg m c main_arg5) : S128.Idx → EReal) shapeCasts_S128_S1x128 := by
  show StableHlo.after hostOps0 (W0 m ρ c) _ = _
  dsimp only [hostOps0]
  after_results
  rfl
theorem w1_v14 : (W1 m ρ c (Proc.devRef .tc main_v14) : S1x128.Idx → EReal) = shapeCast S1x128 ((arg m c main_arg7) : S128.Idx → EReal) shapeCasts_S128_S1x128 := by
  show StableHlo.after hostOps0 (W0 m ρ c) _ = _
  dsimp only [hostOps0]
  after_results
  rfl
theorem w1_arg2 : W1 m ρ c (Proc.devRef .tc main_arg2) = (arg m c main_arg2) := by
  show StableHlo.after hostOps0 (W0 m ρ c) _ = _
  dsimp only [hostOps0]
  after_results
theorem w1_arg3 : W1 m ρ c (Proc.devRef .tc main_arg3) = (arg m c main_arg3) := by
  show StableHlo.after hostOps0 (W0 m ρ c) _ = _
  dsimp only [hostOps0]
  after_results
theorem w1_arg6 : W1 m ρ c (Proc.devRef .tc main_arg6) = (arg m c main_arg6) := by
  show StableHlo.after hostOps0 (W0 m ρ c) _ = _
  dsimp only [hostOps0]
  after_results
theorem w1_arg8 : W1 m ρ c (Proc.devRef .tc main_arg8) = (arg m c main_arg8) := by
  show StableHlo.after hostOps0 (W0 m ρ c) _ = _
  dsimp only [hostOps0]
  after_results
theorem w1_arg9 : W1 m ρ c (Proc.devRef .tc main_arg9) = (arg m c main_arg9) := by
  show StableHlo.after hostOps0 (W0 m ρ c) _ = _
  dsimp only [hostOps0]
  after_results
theorem w1_arg10 : W1 m ρ c (Proc.devRef .tc main_arg10) = (arg m c main_arg10) := by
  show StableHlo.after hostOps0 (W0 m ρ c) _ = _
  dsimp only [hostOps0]
  after_results
theorem w1_arg11 : W1 m ρ c (Proc.devRef .tc main_arg11) = (arg m c main_arg11) := by
  show StableHlo.after hostOps0 (W0 m ρ c) _ = _
  dsimp only [hostOps0]
  after_results
theorem w1_arg12 : W1 m ρ c (Proc.devRef .tc main_arg12) = (arg m c main_arg12) := by
  show StableHlo.after hostOps0 (W0 m ρ c) _ = _
  dsimp only [hostOps0]
  after_results
theorem w1_arg13 : W1 m ρ c (Proc.devRef .tc main_arg13) = (arg m c main_arg13) := by
  show StableHlo.after hostOps0 (W0 m ρ c) _ = _
  dsimp only [hostOps0]
  after_results
theorem w1_arg14 : W1 m ρ c (Proc.devRef .tc main_arg14) = (arg m c main_arg14) := by
  show StableHlo.after hostOps0 (W0 m ρ c) _ = _
  dsimp only [hostOps0]
  after_results
theorem w1_arg15 : W1 m ρ c (Proc.devRef .tc main_arg15) = (arg m c main_arg15) := by
  show StableHlo.after hostOps0 (W0 m ρ c) _ = _
  dsimp only [hostOps0]
  after_results
theorem w1_arg16 : W1 m ρ c (Proc.devRef .tc main_arg16) = (arg m c main_arg16) := by
  show StableHlo.after hostOps0 (W0 m ρ c) _ = _
  dsimp only [hostOps0]
  after_results
theorem w1_arg17 : W1 m ρ c (Proc.devRef .tc main_arg17) = (arg m c main_arg17) := by
  show StableHlo.after hostOps0 (W0 m ρ c) _ = _
  dsimp only [hostOps0]
  after_results

/-! ## Launch 0 -/

/-- The first launch's output array is the reference's first perceptron output. -/
theorem w2_v15 : W2 m ρ c (Proc.devRef .tc main_v15) = val_main_v20 (F := Ideal) (arg m c main_arg0) (arg m c main_arg1) (arg m c main_arg2) (arg m c main_arg4) (arg m c main_arg5) (arg m c main_arg6) (arg m c main_arg7) :=
  (W2_arr m ρ c 7).trans ((Cert.KernelIdeal.Region0.final (V1 m ρ) c _ _ _ _ _ _
      (w1_v10 m ρ c) (w1_arg2 m ρ c)
      (fun k j => by
        show (W1 m ρ c (Proc.devRef .tc main_v11) : S64x128.Idx → EReal) (ix2 k j) = _
        rw [w1_v11 m ρ c]
        exact slice2_axis0_apply 0 _ _ k j _ (Nat.zero_add _).symm)
      (fun k j => by
        show (W1 m ρ c (Proc.devRef .tc main_v12) : S32x128.Idx → EReal) (ix2 k j) = _
        rw [w1_v12 m ρ c]
        exact slice2_axis0_apply 64 _ _ k j _ rfl)
      (fun j => by
        show (W1 m ρ c (Proc.devRef .tc main_v13) : S1x128.Idx → EReal) (ix2 (0 : Fin 1) j) = _
        rw [w1_v13 m ρ c]
        exact shapeCast_a_1a_apply _ _ 0 j)
      (w1_arg6 m ρ c)
      (fun q => by
        show (W1 m ρ c (Proc.devRef .tc main_v14) : S1x128.Idx → EReal) (ix2 (0 : Fin 1) q) = _
        rw [w1_v14 m ρ c]
        exact shapeCast_a_1a_apply _ _ 0 q)).trans
    (stage20 (arg m c main_arg0) (arg m c main_arg1) (arg m c main_arg2) (arg m c main_arg4) (arg m c main_arg5) (arg m c main_arg6) (arg m c main_arg7)).symm)

/-! ### What launch 0 keeps -/

theorem w2_v1 : W2 m ρ c (Proc.devRef .tc main_v1) = val_main_v1 (F := Ideal) (arg m c main_arg1) :=
  (W2_of_ne m ρ c main_v1 (by decide)).trans (w1_v1 m ρ c)
theorem w2_v3 : W2 m ρ c (Proc.devRef .tc main_v3) = val_main_v3 (F := Ideal) (arg m c main_arg1) :=
  (W2_of_ne m ρ c main_v3 (by decide)).trans (w1_v3 m ρ c)
theorem w2_arg2 : W2 m ρ c (Proc.devRef .tc main_arg2) = (arg m c main_arg2) :=
  ((W2_arr m ρ c 1).trans (((dat0 (V1 m ρ) c).arrAt_in 1 rfl _).trans (A_eq0 (V1 m ρ) c 1))).trans (w1_arg2 m ρ c)
theorem w2_arg3 : W2 m ρ c (Proc.devRef .tc main_arg3) = (arg m c main_arg3) :=
  (W2_of_ne m ρ c main_arg3 (by decide)).trans (w1_arg3 m ρ c)
theorem w2_arg8 : W2 m ρ c (Proc.devRef .tc main_arg8) = (arg m c main_arg8) :=
  (W2_of_ne m ρ c main_arg8 (by decide)).trans (w1_arg8 m ρ c)
theorem w2_arg9 : W2 m ρ c (Proc.devRef .tc main_arg9) = (arg m c main_arg9) :=
  (W2_of_ne m ρ c main_arg9 (by decide)).trans (w1_arg9 m ρ c)
theorem w2_arg10 : W2 m ρ c (Proc.devRef .tc main_arg10) = (arg m c main_arg10) :=
  (W2_of_ne m ρ c main_arg10 (by decide)).trans (w1_arg10 m ρ c)
theorem w2_arg11 : W2 m ρ c (Proc.devRef .tc main_arg11) = (arg m c main_arg11) :=
  (W2_of_ne m ρ c main_arg11 (by decide)).trans (w1_arg11 m ρ c)
theorem w2_arg12 : W2 m ρ c (Proc.devRef .tc main_arg12) = (arg m c main_arg12) :=
  (W2_of_ne m ρ c main_arg12 (by decide)).trans (w1_arg12 m ρ c)
theorem w2_arg13 : W2 m ρ c (Proc.devRef .tc main_arg13) = (arg m c main_arg13) :=
  (W2_of_ne m ρ c main_arg13 (by decide)).trans (w1_arg13 m ρ c)
theorem w2_arg14 : W2 m ρ c (Proc.devRef .tc main_arg14) = (arg m c main_arg14) :=
  (W2_of_ne m ρ c main_arg14 (by decide)).trans (w1_arg14 m ρ c)
theorem w2_arg15 : W2 m ρ c (Proc.devRef .tc main_arg15) = (arg m c main_arg15) :=
  (W2_of_ne m ρ c main_arg15 (by decide)).trans (w1_arg15 m ρ c)
theorem w2_arg16 : W2 m ρ c (Proc.devRef .tc main_arg16) = (arg m c main_arg16) :=
  (W2_of_ne m ρ c main_arg16 (by decide)).trans (w1_arg16 m ρ c)
theorem w2_arg17 : W2 m ρ c (Proc.devRef .tc main_arg17) = (arg m c main_arg17) :=
  (W2_of_ne m ρ c main_arg17 (by decide)).trans (w1_arg17 m ρ c)

/-! ## The stretches before launch 1 -/

theorem w5_v1 : W5 m ρ c (Proc.devRef .tc main_v1) = val_main_v1 (F := Ideal) (arg m c main_arg1) := by
  show StableHlo.after hostOps1_2 (StableHlo.after hostOps1_1 (StableHlo.after hostOps1 (W2 m ρ c))) _ = _
  dsimp only [hostOps1, hostOps1_1, hostOps1_2]
  after_results
  exact w2_v1 m ρ c
theorem w5_v3 : W5 m ρ c (Proc.devRef .tc main_v3) = val_main_v3 (F := Ideal) (arg m c main_arg1) := by
  show StableHlo.after hostOps1_2 (StableHlo.after hostOps1_1 (StableHlo.after hostOps1 (W2 m ρ c))) _ = _
  dsimp only [hostOps1, hostOps1_1, hostOps1_2]
  after_results
  exact w2_v3 m ρ c
/-- The scatter-add of a launch's output onto the destination rows, over any buffer contents `X`: if the launch's
    output holds the perceptron stage and the destination indices their stage, the sums hold the reference's. -/
theorem round1_scatter (X : Valuation τ sig (Elt Ideal)) (hout : X (Proc.devRef .tc main_v15) = val_main_v20 (F := Ideal) (arg m c main_arg0) (arg m c main_arg1) (arg m c main_arg2) (arg m c main_arg4) (arg m c main_arg5) (arg m c main_arg6) (arg m c main_arg7))
    (hdst : X (Proc.devRef .tc main_v3) = val_main_v3 (F := Ideal) (arg m c main_arg1)) :
    StableHlo.after hostOps1 X (Proc.devRef .tc main_v18) = val_main_v23 (F := Ideal) (arg m c main_arg0) (arg m c main_arg1) (arg m c main_arg2) (arg m c main_arg4) (arg m c main_arg5) (arg m c main_arg6) (arg m c main_arg7) := by
  dsimp only [hostOps1]
  after_results
  rw [hout, hdst]
  rfl

/-- The rectifier's stretch, over any buffer contents `Y`: the maximum of the sums with the zero array. -/
theorem round1_relu (Y : Valuation τ sig (Elt Ideal)) :
    StableHlo.after hostOps1_1 Y (Proc.devRef .tc main_v19)
      = maximumf (F := Ideal) (Y (Proc.devRef .tc main_v18) : S50000x128.Idx → EReal)
          (broadcastInDim S50000x128 ![] bcast_S_S50000x128 (constant (F := Ideal) S_ .f32 0x00000000#32)) := by
  dsimp only [hostOps1_1]
  after_results
  rfl

/-- One round's host operations after a launch: the node features hold the reference's rectified stage. -/
theorem round1_nodes (X : Valuation τ sig (Elt Ideal)) (hout : X (Proc.devRef .tc main_v15) = val_main_v20 (F := Ideal) (arg m c main_arg0) (arg m c main_arg1) (arg m c main_arg2) (arg m c main_arg4) (arg m c main_arg5) (arg m c main_arg6) (arg m c main_arg7))
    (hdst : X (Proc.devRef .tc main_v3) = val_main_v3 (F := Ideal) (arg m c main_arg1)) :
    StableHlo.after hostOps1_1 (StableHlo.after hostOps1 X) (Proc.devRef .tc main_v19) = val_main_v24 (F := Ideal) (arg m c main_arg0) (arg m c main_arg1) (arg m c main_arg2) (arg m c main_arg4) (arg m c main_arg5) (arg m c main_arg6) (arg m c main_arg7) := by
  rw [round1_relu, round1_scatter m c X hout hdst]
  rfl
/-- The next gather, over any buffer contents `X`: the node features gathered at the source rows. -/
theorem round1_gather (X : Valuation τ sig (Elt Ideal)) (hnodes : X (Proc.devRef .tc main_v19) = val_main_v24 (F := Ideal) (arg m c main_arg0) (arg m c main_arg1) (arg m c main_arg2) (arg m c main_arg4) (arg m c main_arg5) (arg m c main_arg6) (arg m c main_arg7))
    (hsrc : X (Proc.devRef .tc main_v1) = val_main_v1 (F := Ideal) (arg m c main_arg1)) :
    StableHlo.after hostOps1_2 X (Proc.devRef .tc main_v26) = val_main_v31 (F := Ideal) (arg m c main_arg0) (arg m c main_arg1) (arg m c main_arg2) (arg m c main_arg4) (arg m c main_arg5) (arg m c main_arg6) (arg m c main_arg7) := by
  dsimp only [hostOps1_2]
  after_results_simp
  rw [hnodes, hsrc]
  rfl
theorem w4_v1 : W4 m ρ c (Proc.devRef .tc main_v1) = val_main_v1 (F := Ideal) (arg m c main_arg1) := by
  show StableHlo.after hostOps1_1 (StableHlo.after hostOps1 (W2 m ρ c)) _ = _
  dsimp only [hostOps1, hostOps1_1]
  after_results
  exact w2_v1 m ρ c
/-- The second gather: the rectified scatter-add of the first perceptron's output, gathered at the source rows. -/
theorem w5_v26 : W5 m ρ c (Proc.devRef .tc main_v26) = val_main_v31 (F := Ideal) (arg m c main_arg0) (arg m c main_arg1) (arg m c main_arg2) (arg m c main_arg4) (arg m c main_arg5) (arg m c main_arg6) (arg m c main_arg7) :=
  round1_gather m c (W4 m ρ c) (round1_nodes m c (W2 m ρ c) (w2_v15 m ρ c) (w2_v3 m ρ c)) (w4_v1 m ρ c)
theorem w5_v27 : (W5 m ρ c (Proc.devRef .tc main_v27) : S128x128.Idx → EReal) = extractStridedSlice S128x128 ![0, 0] ((arg m c main_arg8) : S160x128.Idx → EReal) slices_S160x128_S128x128_0_0 := by
  show StableHlo.after hostOps1_2 (StableHlo.after hostOps1_1 (StableHlo.after hostOps1 (W2 m ρ c))) _ = _
  dsimp only [hostOps1, hostOps1_1, hostOps1_2]
  after_results
  rw [w2_arg8 m ρ c]
theorem w5_v28 : (W5 m ρ c (Proc.devRef .tc main_v28) : S32x128.Idx → EReal) = extractStridedSlice S32x128 ![128, 0] ((arg m c main_arg8) : S160x128.Idx → EReal) slices_S160x128_S32x128_128_0 := by
  show StableHlo.after hostOps1_2 (StableHlo.after hostOps1_1 (StableHlo.after hostOps1 (W2 m ρ c))) _ = _
  dsimp only [hostOps1, hostOps1_1, hostOps1_2]
  after_results
  rw [w2_arg8 m ρ c]
theorem w5_v29 : (W5 m ρ c (Proc.devRef .tc main_v29) : S1x128.Idx → EReal) = shapeCast S1x128 ((arg m c main_arg9) : S128.Idx → EReal) shapeCasts_S128_S1x128 := by
  show StableHlo.after hostOps1_2 (StableHlo.after hostOps1_1 (StableHlo.after hostOps1 (W2 m ρ c))) _ = _
  dsimp only [hostOps1, hostOps1_1, hostOps1_2]
  after_results
  rw [w2_arg9 m ρ c]
  rfl
theorem w5_v30 : (W5 m ρ c (Proc.devRef .tc main_v30) : S1x128.Idx → EReal) = shapeCast S1x128 ((arg m c main_arg11) : S128.Idx → EReal) shapeCasts_S128_S1x128 := by
  show StableHlo.after hostOps1_2 (StableHlo.after hostOps1_1 (StableHlo.after hostOps1 (W2 m ρ c))) _ = _
  dsimp only [hostOps1, hostOps1_1, hostOps1_2]
  after_results
  rw [w2_arg11 m ρ c]
  rfl
theorem w5_arg2 : W5 m ρ c (Proc.devRef .tc main_arg2) = (arg m c main_arg2) := by
  show StableHlo.after hostOps1_2 (StableHlo.after hostOps1_1 (StableHlo.after hostOps1 (W2 m ρ c))) _ = _
  dsimp only [hostOps1, hostOps1_1, hostOps1_2]
  after_results
  exact w2_arg2 m ρ c
theorem w5_arg3 : W5 m ρ c (Proc.devRef .tc main_arg3) = (arg m c main_arg3) := by
  show StableHlo.after hostOps1_2 (StableHlo.after hostOps1_1 (StableHlo.after hostOps1 (W2 m ρ c))) _ = _
  dsimp only [hostOps1, hostOps1_1, hostOps1_2]
  after_results
  exact w2_arg3 m ρ c
theorem w5_arg10 : W5 m ρ c (Proc.devRef .tc main_arg10) = (arg m c main_arg10) := by
  show StableHlo.after hostOps1_2 (StableHlo.after hostOps1_1 (StableHlo.after hostOps1 (W2 m ρ c))) _ = _
  dsimp only [hostOps1, hostOps1_1, hostOps1_2]
  after_results
  exact w2_arg10 m ρ c
theorem w5_arg12 : W5 m ρ c (Proc.devRef .tc main_arg12) = (arg m c main_arg12) := by
  show StableHlo.after hostOps1_2 (StableHlo.after hostOps1_1 (StableHlo.after hostOps1 (W2 m ρ c))) _ = _
  dsimp only [hostOps1, hostOps1_1, hostOps1_2]
  after_results
  exact w2_arg12 m ρ c
theorem w5_arg13 : W5 m ρ c (Proc.devRef .tc main_arg13) = (arg m c main_arg13) := by
  show StableHlo.after hostOps1_2 (StableHlo.after hostOps1_1 (StableHlo.after hostOps1 (W2 m ρ c))) _ = _
  dsimp only [hostOps1, hostOps1_1, hostOps1_2]
  after_results
  exact w2_arg13 m ρ c
theorem w5_arg14 : W5 m ρ c (Proc.devRef .tc main_arg14) = (arg m c main_arg14) := by
  show StableHlo.after hostOps1_2 (StableHlo.after hostOps1_1 (StableHlo.after hostOps1 (W2 m ρ c))) _ = _
  dsimp only [hostOps1, hostOps1_1, hostOps1_2]
  after_results
  exact w2_arg14 m ρ c
theorem w5_arg15 : W5 m ρ c (Proc.devRef .tc main_arg15) = (arg m c main_arg15) := by
  show StableHlo.after hostOps1_2 (StableHlo.after hostOps1_1 (StableHlo.after hostOps1 (W2 m ρ c))) _ = _
  dsimp only [hostOps1, hostOps1_1, hostOps1_2]
  after_results
  exact w2_arg15 m ρ c
theorem w5_arg16 : W5 m ρ c (Proc.devRef .tc main_arg16) = (arg m c main_arg16) := by
  show StableHlo.after hostOps1_2 (StableHlo.after hostOps1_1 (StableHlo.after hostOps1 (W2 m ρ c))) _ = _
  dsimp only [hostOps1, hostOps1_1, hostOps1_2]
  after_results
  exact w2_arg16 m ρ c
theorem w5_arg17 : W5 m ρ c (Proc.devRef .tc main_arg17) = (arg m c main_arg17) := by
  show StableHlo.after hostOps1_2 (StableHlo.after hostOps1_1 (StableHlo.after hostOps1 (W2 m ρ c))) _ = _
  dsimp only [hostOps1, hostOps1_1, hostOps1_2]
  after_results
  exact w2_arg17 m ρ c

/-! ## Launch 1 -/

/-- The second launch's output array is the reference's second perceptron output. -/
theorem w6_v31 : W6 m ρ c (Proc.devRef .tc main_v31) = val_main_v41 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) :=
  (W6_arr m ρ c 7).trans ((Cert.KernelIdeal.Region1.final (V5 m ρ) c _ _ _ _ _ _
      (w5_v26 m ρ c) (w5_arg2 m ρ c)
      (fun k j => by
        show (W5 m ρ c (Proc.devRef .tc main_v27) : S128x128.Idx → EReal) (ix2 k j) = _
        rw [w5_v27 m ρ c]
        exact slice2_axis0_apply 0 _ _ k j _ (Nat.zero_add _).symm)
      (fun k j => by
        show (W5 m ρ c (Proc.devRef .tc main_v28) : S32x128.Idx → EReal) (ix2 k j) = _
        rw [w5_v28 m ρ c]
        exact slice2_axis0_apply 128 _ _ k j _ rfl)
      (fun j => by
        show (W5 m ρ c (Proc.devRef .tc main_v29) : S1x128.Idx → EReal) (ix2 (0 : Fin 1) j) = _
        rw [w5_v29 m ρ c]
        exact shapeCast_a_1a_apply _ _ 0 j)
      (w5_arg10 m ρ c)
      (fun q => by
        show (W5 m ρ c (Proc.devRef .tc main_v30) : S1x128.Idx → EReal) (ix2 (0 : Fin 1) q) = _
        rw [w5_v30 m ρ c]
        exact shapeCast_a_1a_apply _ _ 0 q)).trans
    (stage41 (arg m c main_arg0) (arg m c main_arg1) (arg m c main_arg2) (arg m c main_arg4) (arg m c main_arg5) (arg m c main_arg6) (arg m c main_arg7) (arg m c main_arg8) (arg m c main_arg9) (arg m c main_arg10) (arg m c main_arg11)).symm)

/-! ### What launch 1 keeps -/

theorem w6_v1 : W6 m ρ c (Proc.devRef .tc main_v1) = val_main_v1 (F := Ideal) (arg m c main_arg1) :=
  (W6_of_ne m ρ c main_v1 (by decide)).trans (w5_v1 m ρ c)
theorem w6_v3 : W6 m ρ c (Proc.devRef .tc main_v3) = val_main_v3 (F := Ideal) (arg m c main_arg1) :=
  (W6_of_ne m ρ c main_v3 (by decide)).trans (w5_v3 m ρ c)
theorem w6_arg2 : W6 m ρ c (Proc.devRef .tc main_arg2) = (arg m c main_arg2) :=
  ((W6_arr m ρ c 1).trans (((dat1 (V5 m ρ) c).arrAt_in 1 rfl _).trans (A_eq1 (V5 m ρ) c 1))).trans (w5_arg2 m ρ c)
theorem w6_arg3 : W6 m ρ c (Proc.devRef .tc main_arg3) = (arg m c main_arg3) :=
  (W6_of_ne m ρ c main_arg3 (by decide)).trans (w5_arg3 m ρ c)
theorem w6_arg12 : W6 m ρ c (Proc.devRef .tc main_arg12) = (arg m c main_arg12) :=
  (W6_of_ne m ρ c main_arg12 (by decide)).trans (w5_arg12 m ρ c)
theorem w6_arg13 : W6 m ρ c (Proc.devRef .tc main_arg13) = (arg m c main_arg13) :=
  (W6_of_ne m ρ c main_arg13 (by decide)).trans (w5_arg13 m ρ c)
theorem w6_arg14 : W6 m ρ c (Proc.devRef .tc main_arg14) = (arg m c main_arg14) :=
  (W6_of_ne m ρ c main_arg14 (by decide)).trans (w5_arg14 m ρ c)
theorem w6_arg15 : W6 m ρ c (Proc.devRef .tc main_arg15) = (arg m c main_arg15) :=
  (W6_of_ne m ρ c main_arg15 (by decide)).trans (w5_arg15 m ρ c)
theorem w6_arg16 : W6 m ρ c (Proc.devRef .tc main_arg16) = (arg m c main_arg16) :=
  (W6_of_ne m ρ c main_arg16 (by decide)).trans (w5_arg16 m ρ c)
theorem w6_arg17 : W6 m ρ c (Proc.devRef .tc main_arg17) = (arg m c main_arg17) :=
  (W6_of_ne m ρ c main_arg17 (by decide)).trans (w5_arg17 m ρ c)

/-! ## The stretches before launch 2 -/

theorem w9_v3 : W9 m ρ c (Proc.devRef .tc main_v3) = val_main_v3 (F := Ideal) (arg m c main_arg1) := by
  show StableHlo.after hostOps2_2 (StableHlo.after hostOps2_1 (StableHlo.after hostOps2 (W6 m ρ c))) _ = _
  dsimp only [hostOps2, hostOps2_1, hostOps2_2]
  after_results
  exact w6_v3 m ρ c
/-- The scatter-add of a launch's output onto the destination rows, over any buffer contents `X`: if the launch's
    output holds the perceptron stage and the destination indices their stage, the sums hold the reference's. -/
theorem round2_scatter (X : Valuation τ sig (Elt Ideal)) (hout : X (Proc.devRef .tc main_v31) = val_main_v41 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11))
    (hdst : X (Proc.devRef .tc main_v3) = val_main_v3 (F := Ideal) (arg m c main_arg1)) :
    StableHlo.after hostOps2 X (Proc.devRef .tc main_v34) = val_main_v44 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) := by
  dsimp only [hostOps2]
  after_results
  rw [hout, hdst]
  rfl

/-- The rectifier's stretch, over any buffer contents `Y`: the maximum of the sums with the zero array. -/
theorem round2_relu (Y : Valuation τ sig (Elt Ideal)) :
    StableHlo.after hostOps2_1 Y (Proc.devRef .tc main_v35)
      = maximumf (F := Ideal) (Y (Proc.devRef .tc main_v34) : S50000x128.Idx → EReal)
          (broadcastInDim S50000x128 ![] bcast_S_S50000x128 (constant (F := Ideal) S_ .f32 0x00000000#32)) := by
  dsimp only [hostOps2_1]
  after_results
  rfl

/-- One round's host operations after a launch: the node features hold the reference's rectified stage. -/
theorem round2_nodes (X : Valuation τ sig (Elt Ideal)) (hout : X (Proc.devRef .tc main_v31) = val_main_v41 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11))
    (hdst : X (Proc.devRef .tc main_v3) = val_main_v3 (F := Ideal) (arg m c main_arg1)) :
    StableHlo.after hostOps2_1 (StableHlo.after hostOps2 X) (Proc.devRef .tc main_v35) = val_main_v45 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) := by
  rw [round2_relu, round2_scatter m c X hout hdst]
  rfl
/-- The next gather, over any buffer contents `X`: the node features gathered at the source rows. -/
theorem round2_gather (X : Valuation τ sig (Elt Ideal)) (hnodes : X (Proc.devRef .tc main_v35) = val_main_v45 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11))
    (hsrc : X (Proc.devRef .tc main_v1) = val_main_v1 (F := Ideal) (arg m c main_arg1)) :
    StableHlo.after hostOps2_2 X (Proc.devRef .tc main_v42) = val_main_v52 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) := by
  dsimp only [hostOps2_2]
  after_results_simp
  rw [hnodes, hsrc]
  rfl
theorem w8_v1 : W8 m ρ c (Proc.devRef .tc main_v1) = val_main_v1 (F := Ideal) (arg m c main_arg1) := by
  show StableHlo.after hostOps2_1 (StableHlo.after hostOps2 (W6 m ρ c)) _ = _
  dsimp only [hostOps2, hostOps2_1]
  after_results
  exact w6_v1 m ρ c
/-- The third gather. -/
theorem w9_v42 : W9 m ρ c (Proc.devRef .tc main_v42) = val_main_v52 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) :=
  round2_gather m c (W8 m ρ c) (round2_nodes m c (W6 m ρ c) (w6_v31 m ρ c) (w6_v3 m ρ c)) (w8_v1 m ρ c)
theorem w9_v43 : (W9 m ρ c (Proc.devRef .tc main_v43) : S128x128.Idx → EReal) = extractStridedSlice S128x128 ![0, 0] ((arg m c main_arg12) : S160x128.Idx → EReal) slices_S160x128_S128x128_0_0 := by
  show StableHlo.after hostOps2_2 (StableHlo.after hostOps2_1 (StableHlo.after hostOps2 (W6 m ρ c))) _ = _
  dsimp only [hostOps2, hostOps2_1, hostOps2_2]
  after_results
  rw [w6_arg12 m ρ c]
theorem w9_v44 : (W9 m ρ c (Proc.devRef .tc main_v44) : S32x128.Idx → EReal) = extractStridedSlice S32x128 ![128, 0] ((arg m c main_arg12) : S160x128.Idx → EReal) slices_S160x128_S32x128_128_0 := by
  show StableHlo.after hostOps2_2 (StableHlo.after hostOps2_1 (StableHlo.after hostOps2 (W6 m ρ c))) _ = _
  dsimp only [hostOps2, hostOps2_1, hostOps2_2]
  after_results
  rw [w6_arg12 m ρ c]
theorem w9_v45 : (W9 m ρ c (Proc.devRef .tc main_v45) : S1x128.Idx → EReal) = shapeCast S1x128 ((arg m c main_arg13) : S128.Idx → EReal) shapeCasts_S128_S1x128 := by
  show StableHlo.after hostOps2_2 (StableHlo.after hostOps2_1 (StableHlo.after hostOps2 (W6 m ρ c))) _ = _
  dsimp only [hostOps2, hostOps2_1, hostOps2_2]
  after_results
  rw [w6_arg13 m ρ c]
  rfl
theorem w9_v46 : (W9 m ρ c (Proc.devRef .tc main_v46) : S1x128.Idx → EReal) = shapeCast S1x128 ((arg m c main_arg15) : S128.Idx → EReal) shapeCasts_S128_S1x128 := by
  show StableHlo.after hostOps2_2 (StableHlo.after hostOps2_1 (StableHlo.after hostOps2 (W6 m ρ c))) _ = _
  dsimp only [hostOps2, hostOps2_1, hostOps2_2]
  after_results
  rw [w6_arg15 m ρ c]
  rfl
theorem w9_arg2 : W9 m ρ c (Proc.devRef .tc main_arg2) = (arg m c main_arg2) := by
  show StableHlo.after hostOps2_2 (StableHlo.after hostOps2_1 (StableHlo.after hostOps2 (W6 m ρ c))) _ = _
  dsimp only [hostOps2, hostOps2_1, hostOps2_2]
  after_results
  exact w6_arg2 m ρ c
theorem w9_arg3 : W9 m ρ c (Proc.devRef .tc main_arg3) = (arg m c main_arg3) := by
  show StableHlo.after hostOps2_2 (StableHlo.after hostOps2_1 (StableHlo.after hostOps2 (W6 m ρ c))) _ = _
  dsimp only [hostOps2, hostOps2_1, hostOps2_2]
  after_results
  exact w6_arg3 m ρ c
theorem w9_arg14 : W9 m ρ c (Proc.devRef .tc main_arg14) = (arg m c main_arg14) := by
  show StableHlo.after hostOps2_2 (StableHlo.after hostOps2_1 (StableHlo.after hostOps2 (W6 m ρ c))) _ = _
  dsimp only [hostOps2, hostOps2_1, hostOps2_2]
  after_results
  exact w6_arg14 m ρ c
theorem w9_arg16 : W9 m ρ c (Proc.devRef .tc main_arg16) = (arg m c main_arg16) := by
  show StableHlo.after hostOps2_2 (StableHlo.after hostOps2_1 (StableHlo.after hostOps2 (W6 m ρ c))) _ = _
  dsimp only [hostOps2, hostOps2_1, hostOps2_2]
  after_results
  exact w6_arg16 m ρ c
theorem w9_arg17 : W9 m ρ c (Proc.devRef .tc main_arg17) = (arg m c main_arg17) := by
  show StableHlo.after hostOps2_2 (StableHlo.after hostOps2_1 (StableHlo.after hostOps2 (W6 m ρ c))) _ = _
  dsimp only [hostOps2, hostOps2_1, hostOps2_2]
  after_results
  exact w6_arg17 m ρ c

/-! ## Launch 2 -/

/-- The third launch's output array is the reference's third perceptron output. -/
theorem w10_v47 : W10 m ρ c (Proc.devRef .tc main_v47) = val_main_v62 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) :=
  (W10_arr m ρ c 7).trans ((Cert.KernelIdeal.Region2.final (V9 m ρ) c _ _ _ _ _ _
      (w9_v42 m ρ c) (w9_arg2 m ρ c)
      (fun k j => by
        show (W9 m ρ c (Proc.devRef .tc main_v43) : S128x128.Idx → EReal) (ix2 k j) = _
        rw [w9_v43 m ρ c]
        exact slice2_axis0_apply 0 _ _ k j _ (Nat.zero_add _).symm)
      (fun k j => by
        show (W9 m ρ c (Proc.devRef .tc main_v44) : S32x128.Idx → EReal) (ix2 k j) = _
        rw [w9_v44 m ρ c]
        exact slice2_axis0_apply 128 _ _ k j _ rfl)
      (fun j => by
        show (W9 m ρ c (Proc.devRef .tc main_v45) : S1x128.Idx → EReal) (ix2 (0 : Fin 1) j) = _
        rw [w9_v45 m ρ c]
        exact shapeCast_a_1a_apply _ _ 0 j)
      (w9_arg14 m ρ c)
      (fun q => by
        show (W9 m ρ c (Proc.devRef .tc main_v46) : S1x128.Idx → EReal) (ix2 (0 : Fin 1) q) = _
        rw [w9_v46 m ρ c]
        exact shapeCast_a_1a_apply _ _ 0 q)).trans
    (stage62 (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15)).symm)

/-! ### What launch 2 keeps -/

theorem w10_v3 : W10 m ρ c (Proc.devRef .tc main_v3) = val_main_v3 (F := Ideal) (arg m c main_arg1) :=
  (W10_of_ne m ρ c main_v3 (by decide)).trans (w9_v3 m ρ c)
theorem w10_arg3 : W10 m ρ c (Proc.devRef .tc main_arg3) = (arg m c main_arg3) :=
  (W10_of_ne m ρ c main_arg3 (by decide)).trans (w9_arg3 m ρ c)
theorem w10_arg16 : W10 m ρ c (Proc.devRef .tc main_arg16) = (arg m c main_arg16) :=
  (W10_of_ne m ρ c main_arg16 (by decide)).trans (w9_arg16 m ρ c)
theorem w10_arg17 : W10 m ρ c (Proc.devRef .tc main_arg17) = (arg m c main_arg17) :=
  (W10_of_ne m ρ c main_arg17 (by decide)).trans (w9_arg17 m ρ c)

/-! ## The last stretches: the result -/

/-- The scatter-add of a launch's output onto the destination rows, over any buffer contents `X`: if the launch's
    output holds the perceptron stage and the destination indices their stage, the sums hold the reference's. -/
theorem round3_scatter (X : Valuation τ sig (Elt Ideal)) (hout : X (Proc.devRef .tc main_v47) = val_main_v62 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15))
    (hdst : X (Proc.devRef .tc main_v3) = val_main_v3 (F := Ideal) (arg m c main_arg1)) :
    StableHlo.after hostOps3 X (Proc.devRef .tc main_v50) = val_main_v65 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  dsimp only [hostOps3]
  after_results
  rw [hout, hdst]
  rfl

/-- The rectifier's stretch, over any buffer contents `Y`: the maximum of the sums with the zero array. -/
theorem round3_relu (Y : Valuation τ sig (Elt Ideal)) :
    StableHlo.after hostOps3_1 Y (Proc.devRef .tc main_v51)
      = maximumf (F := Ideal) (Y (Proc.devRef .tc main_v50) : S50000x128.Idx → EReal)
          (broadcastInDim S50000x128 ![] bcast_S_S50000x128 (constant (F := Ideal) S_ .f32 0x00000000#32)) := by
  dsimp only [hostOps3_1]
  after_results
  rfl

/-- One round's host operations after a launch: the node features hold the reference's rectified stage. -/
theorem round3_nodes (X : Valuation τ sig (Elt Ideal)) (hout : X (Proc.devRef .tc main_v47) = val_main_v62 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15))
    (hdst : X (Proc.devRef .tc main_v3) = val_main_v3 (F := Ideal) (arg m c main_arg1)) :
    StableHlo.after hostOps3_1 (StableHlo.after hostOps3 X) (Proc.devRef .tc main_v51) = val_main_v66 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  rw [round3_relu, round3_scatter m c X hout hdst]
  rfl
/-- The pooling and the last dense layer, over any buffer contents `X`: the two segment sums over the graphs, the mean,
    the product with the last weight and its bias. -/
theorem pool_tail (X : Valuation τ sig (Elt Ideal)) (hnodes : X (Proc.devRef .tc main_v51) = val_main_v66 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15))
    (h3 : X (Proc.devRef .tc main_arg3) = (arg m c main_arg3)) (h16 : X (Proc.devRef .tc main_arg16) = (arg m c main_arg16)) (h17 : X (Proc.devRef .tc main_arg17) = (arg m c main_arg17)) :
    StableHlo.after hostOps3_2 X (Proc.devRef .tc main_v67) = val_main_v82 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) := by
  dsimp only [hostOps3_2]
  after_results_simp
  rw [hnodes, h3, h16, h17]
  rfl
theorem w12_arg3 : W12 m ρ c (Proc.devRef .tc main_arg3) = (arg m c main_arg3) := by
  show StableHlo.after hostOps3_1 (StableHlo.after hostOps3 (W10 m ρ c)) _ = _
  dsimp only [hostOps3, hostOps3_1]
  after_results
  exact w10_arg3 m ρ c
theorem w12_arg16 : W12 m ρ c (Proc.devRef .tc main_arg16) = (arg m c main_arg16) := by
  show StableHlo.after hostOps3_1 (StableHlo.after hostOps3 (W10 m ρ c)) _ = _
  dsimp only [hostOps3, hostOps3_1]
  after_results
  exact w10_arg16 m ρ c
theorem w12_arg17 : W12 m ρ c (Proc.devRef .tc main_arg17) = (arg m c main_arg17) := by
  show StableHlo.after hostOps3_1 (StableHlo.after hostOps3 (W10 m ρ c)) _ = _
  dsimp only [hostOps3, hostOps3_1]
  after_results
  exact w10_arg17 m ρ c
/-- The kernel's result buffer ends at the reference's result, as one function of the arguments. -/
theorem w13_v67 : W13 m ρ c (Proc.devRef .tc main_v67) = val_main_v82 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) :=
  pool_tail m c (W12 m ρ c) (round3_nodes m c (W10 m ρ c) (w10_v47 m ρ c) (w10_v3 m ρ c))
    (w12_arg3 m ρ c) (w12_arg16 m ρ c) (w12_arg17 m ρ c)

end Cert.KernelIdeal.Stages

end
-- ==== Proof.lean ====
/-
  Three rounds of message passing on a graph, then a mean over each graph and a dense layer: the kernel against its
  reference, on the extended reals.

  Each round gathers every edge's source-node features, runs the edge perceptron on the gathered features joined with
  the edge features (a dense layer, the rectifier, a second dense layer), adds the results onto the destination nodes
  and rectifies. The reference runs the perceptron as host operations over all 800000 edges at once, on the joined
  array. The kernel launches it over 200 blocks of 4000 edges and never joins the two inputs: it multiplies the node
  part by the first rows of the first weight, the edge part by the last 32 rows, and adds the two products. On the
  extended reals, where a change of float format is the identity, the two agree entry for entry: a sum over the joined
  columns is the sum over the node columns plus the sum over the edge columns, a regrouping that asks no finiteness
  of any entry (Proof/LibMlpRows.lean). So each launch's output array is the reference's perceptron output
  (Proof/Region0.lean, Region1.lean, Region2.lean: what a grid point writes back, and the blocks tiling the array), and
  since every host operation around the launches is the same on both sides, each buffer of the kernel that matters
  holds, boundary by boundary, a stage of the reference, up to the result (Proof/Stages.lean). The kernel's run names
  every unscoped buffer at the end (Proof/KernelRun.lean); the reference's run and its stages are generated modules.
  The precondition is never opened. The word-level program's idealization rewrote nothing, so `preserves` is trivial.
-/
import proofs.«155102_j70978629533941_1_alg».proof.Defs
import proofs.«155102_j70978629533941_1_alg».proof.Proof.Gen.Kernel
import proofs.«155102_j70978629533941_1_alg».proof.Proof.Gen.Kernel.Skeleton
import proofs.«155102_j70978629533941_1_alg».proof.Proof.Gen.Kernel.Launch
import proofs.«155102_j70978629533941_1_alg».proof.Proof.Gen.Kernel.Points
import proofs.«155102_j70978629533941_1_alg».proof.Proof.Gen.Kernel.Frame
import proofs.«155102_j70978629533941_1_alg».proof.Proof.Gen.KernelIdeal
import proofs.«155102_j70978629533941_1_alg».proof.Proof.Gen.KernelIdeal.Skeleton
import proofs.«155102_j70978629533941_1_alg».proof.Proof.Gen.KernelIdeal.Launch
import proofs.«155102_j70978629533941_1_alg».proof.Proof.Gen.KernelIdeal.Points
import proofs.«155102_j70978629533941_1_alg».proof.Proof.Gen.KernelIdeal.Frame
import proofs.«155102_j70978629533941_1_alg».proof.Proof.Gen.ReferenceIdeal
import proofs.«155102_j70978629533941_1_alg».proof.Proof.Gen.Pre_finite_inputs
import proofs.«155102_j70978629533941_1_alg».proof.Proof.Gen.ReferenceIdeal.Run
import proofs.«155102_j70978629533941_1_alg».proof.Proof.Gen.ReferenceIdeal.Read
import proofs.«155102_j70978629533941_1_alg».proof.Proof.KernelRun
import proofs.«155102_j70978629533941_1_alg».proof.Proof.Stages
import Idealize.ShloMosaic.Adequacy
import Idealize.ShloMosaic.Init

noncomputable section

namespace Cert.Proof

open Idealize.ShloMosaic Idealize.SL.Sem

namespace Claims

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with one result: the kernel's result buffer
    holds the reference's last stage of the kernel's arguments, and the reference's holds it of its own, which are
    the same arrays. -/
theorem algebraic : Cert.algebraic_KernelIdeal_ReferenceIdeal := by
  intro m ρ m' ρ' _ hagree
  refine ⟨fun c => Cert.KernelIdeal.Gen.W13 m ρ c (Proc.devRef .tc Cert.KernelIdeal.main_v67), ?_, ?_⟩
  · refine (θ_run Cert.KernelIdeal.defs _ _).mono (fun r h c => ?_) (Cert.KernelIdeal.RunAll.run_all (F := Ideal) m ρ)
    exact ⟨h c _ (Cert.KernelIdeal.Gen.mem_uc Cert.KernelIdeal.main_v67 (by decide)),
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c),
      (h c _ (Cert.KernelIdeal.Gen.mem_uc Cert.KernelIdeal.main_arg6 (by decide))).trans (Cert.KernelIdeal.Gen.W13_main_arg6 m ρ c),
      (h c _ (Cert.KernelIdeal.Gen.mem_uc Cert.KernelIdeal.main_arg7 (by decide))).trans (Cert.KernelIdeal.Gen.W13_main_arg7 m ρ c),
      (h c _ (Cert.KernelIdeal.Gen.mem_uc Cert.KernelIdeal.main_arg8 (by decide))).trans (Cert.KernelIdeal.Gen.W13_main_arg8 m ρ c),
      (h c _ (Cert.KernelIdeal.Gen.mem_uc Cert.KernelIdeal.main_arg9 (by decide))).trans (Cert.KernelIdeal.Gen.W13_main_arg9 m ρ c),
      (h c _ (Cert.KernelIdeal.Gen.mem_uc Cert.KernelIdeal.main_arg10 (by decide))).trans (Cert.KernelIdeal.Gen.W13_main_arg10 m ρ c),
      (h c _ (Cert.KernelIdeal.Gen.mem_uc Cert.KernelIdeal.main_arg11 (by decide))).trans (Cert.KernelIdeal.Gen.W13_main_arg11 m ρ c),
      (h c _ (Cert.KernelIdeal.Gen.mem_uc Cert.KernelIdeal.main_arg12 (by decide))).trans (Cert.KernelIdeal.Gen.W13_main_arg12 m ρ c),
      (h c _ (Cert.KernelIdeal.Gen.mem_uc Cert.KernelIdeal.main_arg13 (by decide))).trans (Cert.KernelIdeal.Gen.W13_main_arg13 m ρ c),
      (h c _ (Cert.KernelIdeal.Gen.mem_uc Cert.KernelIdeal.main_arg14 (by decide))).trans (Cert.KernelIdeal.Gen.W13_main_arg14 m ρ c),
      (h c _ (Cert.KernelIdeal.Gen.mem_uc Cert.KernelIdeal.main_arg15 (by decide))).trans (Cert.KernelIdeal.Gen.W13_main_arg15 m ρ c),
      (h c _ (Cert.KernelIdeal.Gen.mem_uc Cert.KernelIdeal.main_arg16 (by decide))).trans (Cert.KernelIdeal.Gen.W13_main_arg16 m ρ c),
      (h c _ (Cert.KernelIdeal.Gen.mem_uc Cert.KernelIdeal.main_arg17 (by decide))).trans (Cert.KernelIdeal.Gen.W13_main_arg17 m ρ c)⟩
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14, h15, h16, h17⟩ := hagree c
    rw [(h c).1, Cert.ReferenceIdeal.Read.val_main_v82_eq m' c, h0, h1, h2, h3, h4, h5, h6, h7, h8, h9, h10, h11, h12, h13, h14, h15, h16, h17]
    exact (Cert.KernelIdeal.Stages.w13_v67 m ρ c).symm

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
